-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S64x64 : Shape := ⟨2, ![64, 64]⟩
abbrev S64 : Shape := ⟨1, ![64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S2x16x2048x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S2x16x2048x64 : Shape := ⟨4, ![2, 16, 2048, 64]⟩
abbrev S64x64 : Shape := ⟨2, ![64, 64]⟩
abbrev S64 : Shape := ⟨1, ![64]⟩
abbrev S1x1x2048x64 : Shape := ⟨4, ![1, 1, 2048, 64]⟩
abbrev S1x1x512x64 : Shape := ⟨4, ![1, 1, 512, 64]⟩
abbrev S2048x64 : Shape := ⟨2, ![2048, 64]⟩
abbrev S1x64 : Shape := ⟨2, ![1, 64]⟩
abbrev S512x64 : Shape := ⟨2, ![512, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S2x16x2048x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x16x2048x64, .f32⟩
  | .local _ .vmem, ⟨0, _⟩ => ⟨S1x1x2048x64, .f32⟩
  | .local _ .vmem, ⟨1, _⟩ => ⟨S1x1x2048x64, .f32⟩
  | .local _ .vmem, ⟨2, _⟩ => ⟨S1x1x512x64, .f32⟩
  | .local _ .vmem, ⟨3, _⟩ => ⟨S1x1x512x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S1x1x512x64, .f32⟩
  | .local _ .vmem, ⟨11, _⟩ => ⟨S1x1x512x64, .f32⟩
  | .local _ .vmem, ⟨12, _⟩ => ⟨S2048x64, .bf16⟩
  | .local _ .vmem, ⟨13, _⟩ => ⟨S2048x64, .bf16⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨3, ![2, 16, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1x512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

class Facts₀ : Prop where
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  broadcasts_S1x64_S512x64 : S1x64.Broadcasts S512x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  shapeCasts_S512x64_S1x1x512x64 : S512x64.ShapeCasts S1x1x512x64
  dot_S2048x64_S64x64_S2048x64_1_0_0_1_n_n_wf : DotDims.WF S2048x64 S64x64 S2048x64 [1] [0] [0] [1] [] []
  dot_S512x64_S64x64_S512x64_1_0_0_1_n_n_wf : DotDims.WF S512x64 S64x64 S512x64 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048x64.size a ≤ S2x16x2048x64.size a
  hwx0_0 : ∀ i : grid0.Coords, EltTy.bits .f32 = 32 ∨ (Rect.block (s := S2x16x2048x64) S1x1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x64.size a ≤ S2x16x2048x64.size a
  hwx0_1 : ∀ i : grid0.Coords, EltTy.bits .f32 = 32 ∨ (Rect.block (s := S2x16x2048x64) S1x1x512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x512x64.size a ≤ S2x16x2048x64.size a
  hwx0_8 : ∀ i : grid0.Coords, EltTy.bits .f32 = 32 ∨ (Rect.block (s := S2x16x2048x64) S1x1x512x64.size (cc0_transform_8 i) (hinb0_8 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1x1x512x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S64x64 : Shape := ⟨2, ![64, 64]⟩
abbrev S64 : Shape := ⟨1, ![64]⟩
abbrev S1x1x1x64 : Shape := ⟨4, ![1, 1, 1, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x16x2048x64, .f32⟩
  | .hbm, ⟨8, _⟩ => ⟨S1x1x1x64, .f32⟩
  | .hbm, ⟨9, _⟩ => ⟨S2x16x2048x64, .f32⟩
  | .hbm, ⟨10, _⟩ => ⟨S2x16x2048x64, .f32⟩
  | .hbm, ⟨11, _⟩ => ⟨S2x16x2048x64, .f32⟩
  | .hbm, ⟨12, _⟩ => ⟨S1x1x1x64, .f32⟩
  | .hbm, ⟨13, _⟩ => ⟨S2x16x2048x64, .f32⟩
  | .hbm, ⟨14, _⟩ => ⟨S2x16x2048x64, .f32⟩
  | .hbm, ⟨15, _⟩ => ⟨S2x16x2048x64, .f32⟩
  | .hbm, ⟨16, _⟩ => ⟨S1x1x1x64, .f32⟩
  | .hbm, ⟨17, _⟩ => ⟨S2x16x2048x64, .f32⟩
  | .hbm, ⟨18, _⟩ => ⟨S2x16x2048x64, .f32⟩
  | .hbm, ⟨19, _⟩ => ⟨S2x16x2048x2048, .f32⟩
  | .hbm, ⟨20, _⟩ => ⟨S_, .f32⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2x16x2048, .f32⟩
  | .hbm, ⟨25, _⟩ => ⟨S_, .f32⟩
  | .hbm, ⟨26, _⟩ => ⟨S2x16x2048, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x2048, .f32⟩
  | .hbm, ⟨32, _⟩ => ⟨S_, .f32⟩
  | .hbm, ⟨33, _⟩ => ⟨S2x16x2048, .f32⟩
  | .hbm, ⟨34, _⟩ => ⟨S2x16x2048x1, .f32⟩
  | .hbm, ⟨35, _⟩ => ⟨S2x16x2048x2048, .f32⟩
  | .hbm, ⟨36, _⟩ => ⟨S2x16x2048x2048, .f32⟩
  | .hbm, ⟨37, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S64_S1x1x1x64_3 : S64.BroadcastsInDim S1x1x1x64 (![3] : Fin 1 → Fin S1x1x1x64.rank)
  bcast_S1x1x1x64_S2x16x2048x64_0_1_2_3 : S1x1x1x64.BroadcastsInDim S2x16x2048x64 (![0, 1, 2, 3] : Fin 4 → Fin S2x16x2048x64.rank)
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S64x64_S2x16x2048x64_3_1_012_0_n_n_wf : DotDims.WF S2x16x2048x64 S64x64 S2x16x2048x64 [3] [1] [0, 1, 2] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S64x64_S2x16x2048x64_3_1_012_0_n_n : DotDims S2x16x2048x64 S64x64 S2x16x2048x64 where
  lhsContracting := [3]
  rhsContracting := [1]
  lhsNonContracting := [0, 1, 2]
  rhsNonContracting := [0]
  lhsBatch := []
  rhsBatch := []
  wf := dot_S2x16x2048x64_S64x64_S2x16x2048x64_3_1_012_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.BodyAK.lean ====
/-
  The kernel body at one grid point, in its two control cases.

  At a point whose query-tile coordinate is 0 the body first fills the two carried buffers from the head's whole
  slab of x (the key and the value projections), then computes the tile's output from them; at every other point it
  only reads the carried buffers. Each case is stated over arbitrary whole memrefs: the inputs' buffers are handed in
  at named contents and come back unchanged, and what each written buffer ends with is a list of stored pieces over
  whatever it held before.
-/
import proofs.«174484_j86217173500224_1_alg».proof.Proof.Gen.Kernel.Launch
import proofs.«174484_j86217173500224_1_alg».proof.Proof.Gen.Kernel.Skeleton
import proofs.«174484_j86217173500224_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch: the query-tile coordinate is 0. -/
abbrev condQ0 (i : grid0.Coords) : Prop := (Scalar.cmpi .ne (Scalar.extui (Scalar.cmpi .eq (BitVec.ofNat 32 (i 2).val) 0#32)) 0#32) = 1#1

/-- Over the grid in row-major order the query-tile coordinate is 0 exactly at the points ≡ 0 (mod 4). -/
theorem hcondQ0 : ∀ t : Fin cfg0.N, condQ0 (grid0.coords t) ↔ t.val % 4 = 0 :=
  (by decide +kernel : ∀ t : Fin grid0.N, condQ0 (grid0.coords t) ↔ t.val % 4 = 0)

set_option maxHeartbeats 4000000 in
/-- First tile of a head: both carried buffers are overwritten whole, then the output buffer. -/
noncomputable def kernelRunA (c : Dev nD) (i : grid0.Coords) (arg3 : Memref sig .tc .vmem S1x1x2048x64 .f32) (harg3 : arg3.IsWhole) (arg4 : Memref sig .tc .vmem S1x1x512x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S1x1x512x64 .f32) (harg11 : arg11.IsWhole) (arg12 : Memref sig .tc .vmem S2048x64 .bf16) (harg12 : arg12.IsWhole) (arg13 : Memref sig .tc .vmem S2048x64 .bf16) (harg13 : arg13.IsWhole) (hc0 : condQ0 i)
    (x0 : Vec F S1x1x2048x64 .f32) (x1 : Vec F S1x1x512x64 .f32) (x2 : Vec F S64x64 .f32) (x3 : Vec F S64 .f32) (x4 : Vec F S64x64 .f32) (x5 : Vec F S64 .f32) (x6 : Vec F S64x64 .f32) (x7 : Vec F S64 .f32) :
    Σ' (L8 : List (View.Piece (Elt F) S1x1x512x64 .f32)) (LS0 : List (View.Piece (Elt F) S2048x64 .bf16)), { LS1 : List (View.Piece (Elt F) S2048x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
            ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
                ∗ (∃ f, arg11.view.loc (c : Thread nD τ) ↦[arg11.view.set]{fullShare} arg11.view.writes (Elt F) f L8)
                ∗ (∃ f, arg12.view.loc (c : Thread nD τ) ↦[arg12.view.set]{fullShare} arg12.view.writes (Elt F) f LS0)
                ∗ (∃ f, arg13.view.loc (c : Thread nD τ) ↦[arg13.view.set]{fullShare} arg13.view.writes (Elt F) f LS1)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; iexact H8
    isplitl [HS0]
    · iexists _; iexact HS0
    iexists _; iexact HS1

end Cert.Kernel.Hand

end
-- ==== Proof.BodyBK.lean ====
/-
  The kernel body at a grid point whose query-tile coordinate is not 0: the two carried buffers are only read, at the
  contents the head's first tile left in them, and only the output buffer is written.
-/
import proofs.«174484_j86217173500224_1_alg».proof.Proof.Gen.Kernel.Launch
import proofs.«174484_j86217173500224_1_alg».proof.Proof.Gen.Kernel.Skeleton
import proofs.«174484_j86217173500224_1_alg».proof.Proof.Gen.Kernel.Points
import proofs.«174484_j86217173500224_1_alg».proof.Proof.BodyAK
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A later tile of a head: the carried buffers come back as they were; the output buffer is overwritten whole. -/
noncomputable def kernelRunB (c : Dev nD) (i : grid0.Coords) (arg3 : Memref sig .tc .vmem S1x1x2048x64 .f32) (harg3 : arg3.IsWhole) (arg4 : Memref sig .tc .vmem S1x1x512x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S1x1x512x64 .f32) (harg11 : arg11.IsWhole) (arg12 : Memref sig .tc .vmem S2048x64 .bf16) (harg12 : arg12.IsWhole) (arg13 : Memref sig .tc .vmem S2048x64 .bf16) (harg13 : arg13.IsWhole) (hc0 : ¬condQ0 i)
    (x0 : Vec F S1x1x2048x64 .f32) (x1 : Vec F S1x1x512x64 .f32) (x2 : Vec F S64x64 .f32) (x3 : Vec F S64 .f32) (x4 : Vec F S64x64 .f32) (x5 : Vec F S64 .f32) (x6 : Vec F S64x64 .f32) (x7 : Vec F S64 .f32) (xs0 xs1 : Vec F S2048x64 .bf16) :
    { L8 : List (View.Piece (Elt F) S1x1x512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
            ∗ (∃ d, owns (c : Thread nD τ) arg11 fullShare d) ∗ owns (c : Thread nD τ) arg12 fullShare xs0 ∗ owns (c : Thread nD τ) arg13 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
                ∗ (∃ f, arg11.view.loc (c : Thread nD τ) ↦[arg11.view.set]{fullShare} arg11.view.writes (Elt F) f L8)
                ∗ owns (c : Thread nD τ) arg12 fullShare xs0 ∗ owns (c : Thread nD τ) arg13 fullShare xs1) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    obtain rfl := harg12.eq_unread hfs0; obtain rfl := harg13.eq_unread hfs1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; iexact H8
    isplitl [HS0]
    · iexists _; isplitr; · ipureintro; exact harg12.read_unread _
      iexact HS0
    iexists _; isplitr; · ipureintro; exact harg13.read_unread _
    iexact HS1

end Cert.Kernel.Hand

end
-- ==== Proof.FrameK.lean ====
/-
  The run of the region, point by point.

  The grid has 2·16·4 = 128 points in row-major order, so the points ≡ 0 (mod 4) are the first query tiles of the 32
  heads. What the three written buffers hold after each point is defined by recursion on the point: at a first tile the
  two carried buffers take the key and value projections of the head's slab of x and the output buffer the tile's
  result; at a later tile the carried buffers keep what the point before left and the output buffer takes the tile's
  result computed from them. The invariant between points holds the two carried buffers at exactly those contents;
  every input window's staging buffer holds its block of its array at every point, fetched there or not.
-/
import proofs.«174484_j86217173500224_1_alg».proof.Proof.Gen.Kernel.Launch
import proofs.«174484_j86217173500224_1_alg».proof.Proof.Gen.Kernel.Skeleton
import proofs.«174484_j86217173500224_1_alg».proof.Proof.Gen.Kernel.Points
import proofs.«174484_j86217173500224_1_alg».proof.Proof.BodyAK
import proofs.«174484_j86217173500224_1_alg».proof.Proof.BodyBK
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (qW : Fin 9 → PosShare TreeShare)
variable (m : (ℓ : Loc nD τ sig) → Buf (Elt F) ℓ) (ρ : Dev nD → PrngReg)

/-- The buffers as the region finds them: @main has no host line before it. -/
abbrev Vm (c : Dev nD) (b : Ref sig .tc) : Buf (Elt F) ((c : Thread nD τ).loc b) := m ((c : Thread nD τ).loc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (Vm m c (Pipeline.arrRef spec0 w))

/-- Input window 0's current staging buffer holds its block at every point, fetched there or not. -/
theorem before_of_0 {c : Dev nD} (dat : Dat τ (Elt F) Unit ℕ (UR sig nD τ) ℕ cfg0 c) (hA : dat.A 0 = Vm m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_of_1 {c : Dev nD} (dat : Dat τ (Elt F) Unit ℕ (UR sig nD τ) ℕ cfg0 c) (hA : dat.A 1 = Vm m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_of_2 {c : Dev nD} (dat : Dat τ (Elt F) Unit ℕ (UR sig nD τ) ℕ cfg0 c) (hA : dat.A 2 = Vm m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before_of_3 {c : Dev nD} (dat : Dat τ (Elt F) Unit ℕ (UR sig nD τ) ℕ cfg0 c) (hA : dat.A 3 = Vm m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before_of_4 {c : Dev nD} (dat : Dat τ (Elt F) Unit ℕ (UR sig nD τ) ℕ cfg0 c) (hA : dat.A 4 = Vm m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before_of_5 {c : Dev nD} (dat : Dat τ (Elt F) Unit ℕ (UR sig nD τ) ℕ cfg0 c) (hA : dat.A 5 = Vm m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before_of_6 {c : Dev nD} (dat : Dat τ (Elt F) Unit ℕ (UR sig nD τ) ℕ cfg0 c) (hA : dat.A 6 = Vm m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before_of_7 {c : Dev nD} (dat : Dat τ (Elt F) Unit ℕ (UR sig nD τ) ℕ cfg0 c) (hA : dat.A 7 = Vm m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point t, spelled as the pipeline passes it, and its wholeness. -/
abbrev ms0 (t : Fin cfg0.N) : Memref sig .tc .vmem S1x1x2048x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x512x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x512x64 .f32 := win0_8.stage (cfg0.slots t 8)
abbrev hs8 (t : Fin cfg0.N) : (ms8 t).IsWhole := hstage0_8 ((cfg0.slots t 8).cast nbuf0_8)
/-- The two carried buffers, whole. -/
abbrev scM0 : Memref sig .tc .vmem S2048x64 .bf16 := Memref.whole cc0_scratch0
abbrev scM1 : Memref sig .tc .vmem S2048x64 .bf16 := Memref.whole cc0_scratch1
abbrev VS0 : View sig .tc .vmem S2048x64 .bf16 := scM0.view
abbrev VS1 : View sig .tc .vmem S2048x64 .bf16 := scM1.view
/-- One staging buffer of the output window, through which its contents are stated (the choice does not matter). -/
abbrev VO8 : View sig .tc .vmem S1x1x512x64 .f32 := (Memref.whole cc0_stg8_0 : Memref sig .tc .vmem S1x1x512x64 .f32).view

/-- The invariant the launch hands the region: the two carried buffers at some contents, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the written buffers hold after a point of each case -/

section Cases
variable (c : Dev nD) (i : grid0.Coords) (arg3 : Memref sig .tc .vmem S1x1x2048x64 .f32) (harg3 : arg3.IsWhole) (arg4 : Memref sig .tc .vmem S1x1x512x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S1x1x512x64 .f32) (harg11 : arg11.IsWhole) (arg12 : Memref sig .tc .vmem S2048x64 .bf16) (harg12 : arg12.IsWhole) (arg13 : Memref sig .tc .vmem S2048x64 .bf16) (harg13 : arg13.IsWhole)
  (x0 : Vec F S1x1x2048x64 .f32) (x1 : Vec F S1x1x512x64 .f32) (x2 : Vec F S64x64 .f32) (x3 : Vec F S64 .f32) (x4 : Vec F S64x64 .f32) (x5 : Vec F S64 .f32) (x6 : Vec F S64x64 .f32) (x7 : Vec F S64 .f32)

/-- First tile: the output buffer, the key buffer, the value buffer — the stored pieces read back. -/
def out8A (hc0 : condQ0 i) : Vec F S1x1x512x64 .f32 :=
  VO8.read (Elt F) (VO8.writes (Elt F) VO8.junk (kernelRunA c i arg3 harg3 arg4 harg4 arg5 harg5 arg6 harg6 arg7 harg7 arg8 harg8 arg9 harg9 arg10 harg10 arg11 harg11 arg12 harg12 arg13 harg13 hc0 x0 x1 x2 x3 x4 x5 x6 x7).1)
def sKA (hc0 : condQ0 i) : Vec F S2048x64 .bf16 :=
  VS0.read (Elt F) (VS0.writes (Elt F) VS0.junk (kernelRunA c i arg3 harg3 arg4 harg4 arg5 harg5 arg6 harg6 arg7 harg7 arg8 harg8 arg9 harg9 arg10 harg10 arg11 harg11 arg12 harg12 arg13 harg13 hc0 x0 x1 x2 x3 x4 x5 x6 x7).2.1)
def sVA (hc0 : condQ0 i) : Vec F S2048x64 .bf16 :=
  VS1.read (Elt F) (VS1.writes (Elt F) VS1.junk (kernelRunA c i arg3 harg3 arg4 harg4 arg5 harg5 arg6 harg6 arg7 harg7 arg8 harg8 arg9 harg9 arg10 harg10 arg11 harg11 arg12 harg12 arg13 harg13 hc0 x0 x1 x2 x3 x4 x5 x6 x7).2.2.1)
/-- Later tile: the output buffer, from the carried contents. -/
def out8B (hc0 : ¬condQ0 i) (xs0 xs1 : Vec F S2048x64 .bf16) : Vec F S1x1x512x64 .f32 :=
  VO8.read (Elt F) (VO8.writes (Elt F) VO8.junk (kernelRunB c i arg3 harg3 arg4 harg4 arg5 harg5 arg6 harg6 arg7 harg7 arg8 harg8 arg9 harg9 arg10 harg10 arg11 harg11 arg12 harg12 arg13 harg13 hc0 x0 x1 x2 x3 x4 x5 x6 x7 xs0 xs1).1)

/-- The stored pieces cover each written buffer (each is one whole-buffer store). -/
theorem cover8A (hc0 : condQ0 i) (y : S1x1x512x64.Idx) :
    ∃ pc ∈ (kernelRunA c i arg3 harg3 arg4 harg4 arg5 harg5 arg6 harg6 arg7 harg7 arg8 harg8 arg9 harg9 arg10 harg10 arg11 harg11 arg12 harg12 arg13 harg13 hc0 x0 x1 x2 x3 x4 x5 x6 x7).1, y ∈ pc.1.set :=
  View.cover_of_tiledL (kernelRunA c i arg3 harg3 arg4 harg4 arg5 harg5 arg6 harg6 arg7 harg7 arg8 harg8 arg9 harg9 arg10 harg10 arg11 harg11 arg12 harg12 arg13 harg13 hc0 x0 x1 x2 x3 x4 x5 x6 x7).1 S1x1x512x64.size (by sl_kernel_rfl) y
theorem coverKA (hc0 : condQ0 i) (y : S2048x64.Idx) :
    ∃ pc ∈ (kernelRunA c i arg3 harg3 arg4 harg4 arg5 harg5 arg6 harg6 arg7 harg7 arg8 harg8 arg9 harg9 arg10 harg10 arg11 harg11 arg12 harg12 arg13 harg13 hc0 x0 x1 x2 x3 x4 x5 x6 x7).2.1, y ∈ pc.1.set :=
  View.cover_of_tiledL (kernelRunA c i arg3 harg3 arg4 harg4 arg5 harg5 arg6 harg6 arg7 harg7 arg8 harg8 arg9 harg9 arg10 harg10 arg11 harg11 arg12 harg12 arg13 harg13 hc0 x0 x1 x2 x3 x4 x5 x6 x7).2.1 S2048x64.size (by sl_kernel_rfl) y
theorem coverVA (hc0 : condQ0 i) (y : S2048x64.Idx) :
    ∃ pc ∈ (kernelRunA c i arg3 harg3 arg4 harg4 arg5 harg5 arg6 harg6 arg7 harg7 arg8 harg8 arg9 harg9 arg10 harg10 arg11 harg11 arg12 harg12 arg13 harg13 hc0 x0 x1 x2 x3 x4 x5 x6 x7).2.2.1, y ∈ pc.1.set :=
  View.cover_of_tiledL (kernelRunA c i arg3 harg3 arg4 harg4 arg5 harg5 arg6 harg6 arg7 harg7 arg8 harg8 arg9 harg9 arg10 harg10 arg11 harg11 arg12 harg12 arg13 harg13 hc0 x0 x1 x2 x3 x4 x5 x6 x7).2.2.1 S2048x64.size (by sl_kernel_rfl) y
theorem cover8B (hc0 : ¬condQ0 i) (xs0 xs1 : Vec F S2048x64 .bf16) (y : S1x1x512x64.Idx) :
    ∃ pc ∈ (kernelRunB c i arg3 harg3 arg4 harg4 arg5 harg5 arg6 harg6 arg7 harg7 arg8 harg8 arg9 harg9 arg10 harg10 arg11 harg11 arg12 harg12 arg13 harg13 hc0 x0 x1 x2 x3 x4 x5 x6 x7 xs0 xs1).1, y ∈ pc.1.set :=
  View.cover_of_tiledL (kernelRunB c i arg3 harg3 arg4 harg4 arg5 harg5 arg6 harg6 arg7 harg7 arg8 harg8 arg9 harg9 arg10 harg10 arg11 harg11 arg12 harg12 arg13 harg13 hc0 x0 x1 x2 x3 x4 x5 x6 x7 xs0 xs1).1 S1x1x512x64.size (by sl_kernel_rfl) y

end Cases

/-! ## The accumulation over the points -/

/-- After the body at position n: (the output buffer, the key buffer, the value buffer). -/
def outsAt (c : Dev nD) : (n : ℕ) → n < cfg0.N → Vec F S1x1x512x64 .f32 × Vec F S2048x64 .bf16 × Vec F S2048x64 .bf16
  | 0, hn =>
    (out8A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM0 (Memref.isWhole_whole _) scM1 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) ((hcondQ0 ⟨0, hn⟩).mpr (Nat.zero_mod _)),
     sKA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM0 (Memref.isWhole_whole _) scM1 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) ((hcondQ0 ⟨0, hn⟩).mpr (Nat.zero_mod _)),
     sVA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM0 (Memref.isWhole_whole _) scM1 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) ((hcondQ0 ⟨0, hn⟩).mpr (Nat.zero_mod _)))
  | n + 1, hn =>
    if h0 : (n + 1) % 4 = 0 then
      (out8A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) ((hcondQ0 ⟨n + 1, hn⟩).mpr h0),
       sKA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) ((hcondQ0 ⟨n + 1, hn⟩).mpr h0),
       sVA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) ((hcondQ0 ⟨n + 1, hn⟩).mpr h0))
    else
      (out8B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (fun h => h0 ((hcondQ0 ⟨n + 1, hn⟩).mp h))
          (outsAt c n (Nat.lt_of_succ_lt hn)).2.1 (outsAt c n (Nat.lt_of_succ_lt hn)).2.2,
       (outsAt c n (Nat.lt_of_succ_lt hn)).2.1, (outsAt c n (Nat.lt_of_succ_lt hn)).2.2)

/-- At a first tile. -/
theorem outsAt_A (c : Dev nD) (t : Fin cfg0.N) (h0 : t.val % 4 = 0) :
    outsAt m c t.val t.isLt =
      (out8A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((hcondQ0 t).mpr h0),
       sKA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((hcondQ0 t).mpr h0),
       sVA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((hcondQ0 t).mpr h0)) := by
  obtain ⟨n, hn⟩ := t
  cases n with
  | zero => exact rfl
  | succ n => exact (dif_pos h0).trans rfl

/-- At a later tile: over what the point before left. -/
theorem outsAt_B (c : Dev nD) (t : Fin cfg0.N) (h0 : ¬t.val % 4 = 0) :
    outsAt m c t.val t.isLt =
      (out8B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) (fun h => h0 ((hcondQ0 t).mp h))
          (outsAt m c (t.val - 1) (Nat.lt_of_le_of_lt (Nat.sub_le _ _) t.isLt)).2.1 (outsAt m c (t.val - 1) (Nat.lt_of_le_of_lt (Nat.sub_le _ _) t.isLt)).2.2,
       (outsAt m c (t.val - 1) (Nat.lt_of_le_of_lt (Nat.sub_le _ _) t.isLt)).2.1, (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The invariant before position n: at the start what the launch hands over; afterwards the two carried buffers at
    what the point before left in them, and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt m c n hn).2.1) ∗ owns (c : Thread nD τ) scM1 fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare ((outsAt m c n hn).2.1) ∗ owns (c : Thread nD τ) scM1 fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM0 fullShare ((outsAt m c (n - 1) (by omega)).2.1) ∗ owns (c : Thread nD τ) scM1 fullShare ((outsAt m c (n - 1) (by omega)).2.2)) ∗ (∃ r, prngReg c r)) := by
  cases n with
  | zero => exact absurd rfl hz
  | succ n => rfl

/-! ## The proof data -/

/-- The arrays as the region finds them; after the body at point t each input's buffer at its block and the output's
    at the accumulation's first component; the invariant above; the shares of the arrays as given; nothing owed. -/
def dats (_ : Fin 1) (c : Dev nD) : Dat τ (Elt F) Unit ℕ (UR sig nD τ) ℕ cfg0 c where
  A w := Vm m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).1
  Φ t := PhiS m c t.val (Nat.le_of_lt_succ t.isLt)
  q := qW
  owed _ := 0

theorem A_eq (c : Dev nD) (w : Fin cfg0.W) : (dats qW m 0 c).A w = Vm m c (Pipeline.arrRef spec0 w) := by
  dsimp only [dats]
theorem q_eq (c : Dev nD) (w : Fin cfg0.W) : (dats qW m 0 c).q w = qW w := by
  dsimp only [dats]
theorem PhiS_castSucc (c : Dev nD) (t : Fin cfg0.N) :
    (dats qW m 0 c).Φ t.castSucc = PhiS m c t.val (Nat.le_of_lt t.isLt) := by
  dsimp only [dats]; simp only [Fin.coe_castSucc]
theorem after_0 (c : Dev nD) (t : Fin cfg0.N) : (dats qW m 0 c).after 0 t = iblk m c 0 t := by dsimp only [dats]
theorem after_1 (c : Dev nD) (t : Fin cfg0.N) : (dats qW m 0 c).after 1 t = iblk m c 1 t := by dsimp only [dats]
theorem after_2 (c : Dev nD) (t : Fin cfg0.N) : (dats qW m 0 c).after 2 t = iblk m c 2 t := by dsimp only [dats]
theorem after_3 (c : Dev nD) (t : Fin cfg0.N) : (dats qW m 0 c).after 3 t = iblk m c 3 t := by dsimp only [dats]
theorem after_4 (c : Dev nD) (t : Fin cfg0.N) : (dats qW m 0 c).after 4 t = iblk m c 4 t := by dsimp only [dats]
theorem after_5 (c : Dev nD) (t : Fin cfg0.N) : (dats qW m 0 c).after 5 t = iblk m c 5 t := by dsimp only [dats]
theorem after_6 (c : Dev nD) (t : Fin cfg0.N) : (dats qW m 0 c).after 6 t = iblk m c 6 t := by dsimp only [dats]
theorem after_7 (c : Dev nD) (t : Fin cfg0.N) : (dats qW m 0 c).after 7 t = iblk m c 7 t := by dsimp only [dats]
theorem after_8 (c : Dev nD) (t : Fin cfg0.N) : (dats qW m 0 c).after 8 t = (outsAt m c t.val t.isLt).1 := by dsimp only [dats]
theorem before_0 (c : Dev nD) (t : Fin cfg0.N) (d) : (dats qW m 0 c).before 0 t d = iblk m c 0 t :=
  before_of_0 m (dats qW m 0 c) (A_eq qW m c 0) (after_0 qW m c) t d
theorem before_1 (c : Dev nD) (t : Fin cfg0.N) (d) : (dats qW m 0 c).before 1 t d = iblk m c 1 t :=
  before_of_1 m (dats qW m 0 c) (A_eq qW m c 1) (after_1 qW m c) t d
theorem before_2 (c : Dev nD) (t : Fin cfg0.N) (d) : (dats qW m 0 c).before 2 t d = iblk m c 2 t :=
  before_of_2 m (dats qW m 0 c) (A_eq qW m c 2) (after_2 qW m c) t d
theorem before_3 (c : Dev nD) (t : Fin cfg0.N) (d) : (dats qW m 0 c).before 3 t d = iblk m c 3 t :=
  before_of_3 m (dats qW m 0 c) (A_eq qW m c 3) (after_3 qW m c) t d
theorem before_4 (c : Dev nD) (t : Fin cfg0.N) (d) : (dats qW m 0 c).before 4 t d = iblk m c 4 t :=
  before_of_4 m (dats qW m 0 c) (A_eq qW m c 4) (after_4 qW m c) t d
theorem before_5 (c : Dev nD) (t : Fin cfg0.N) (d) : (dats qW m 0 c).before 5 t d = iblk m c 5 t :=
  before_of_5 m (dats qW m 0 c) (A_eq qW m c 5) (after_5 qW m c) t d
theorem before_6 (c : Dev nD) (t : Fin cfg0.N) (d) : (dats qW m 0 c).before 6 t d = iblk m c 6 t :=
  before_of_6 m (dats qW m 0 c) (A_eq qW m c 6) (after_6 qW m c) t d
theorem before_7 (c : Dev nD) (t : Fin cfg0.N) (d) : (dats qW m 0 c).before 7 t d = iblk m c 7 t :=
  before_of_7 m (dats qW m 0 c) (A_eq qW m c 7) (after_7 qW m c) t d

end Cert.Kernel.Hand

end
-- ==== Proof.ObligK.lean ====
/-
  The body obligation: from the invariant before a point and every window's staging buffer at what it holds there, the
  body runs and returns the invariant after the point and every buffer at what the proof data says. A first tile may
  start from carried buffers at anything (it overwrites both); a later tile needs them at what the point before left.
-/
import proofs.«174484_j86217173500224_1_alg».proof.Proof.Gen.Kernel.Launch
import proofs.«174484_j86217173500224_1_alg».proof.Proof.Gen.Kernel.Skeleton
import proofs.«174484_j86217173500224_1_alg».proof.Proof.Gen.Kernel.Points
import proofs.«174484_j86217173500224_1_alg».proof.Proof.FrameK
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (qW : Fin 9 → PosShare TreeShare)
variable (m : (ℓ : Loc nD τ sig) → Buf (Elt F) ℓ)

/-- No window is ever idle: every point stores the output block and reads every input block. -/
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl

/-- What the body is called with at point t, -/
def bodyPre (c : Dev nD) (t : Fin cfg0.N) : sProp 𝕄 :=
  iprop((dats qW m 0 c).Φ t.castSucc ∗ (dats qW m 0 c).owesAt () t.castSucc
    ∗ (∃ d, owns (c : Thread nD τ) (ms0 t) fullShare ((dats qW m 0 c).before 0 t d))
    ∗ (∃ d, owns (c : Thread nD τ) (ms1 t) fullShare ((dats qW m 0 c).before 1 t d))
    ∗ (∃ d, owns (c : Thread nD τ) (ms2 t) fullShare ((dats qW m 0 c).before 2 t d))
    ∗ (∃ d, owns (c : Thread nD τ) (ms3 t) fullShare ((dats qW m 0 c).before 3 t d))
    ∗ (∃ d, owns (c : Thread nD τ) (ms4 t) fullShare ((dats qW m 0 c).before 4 t d))
    ∗ (∃ d, owns (c : Thread nD τ) (ms5 t) fullShare ((dats qW m 0 c).before 5 t d))
    ∗ (∃ d, owns (c : Thread nD τ) (ms6 t) fullShare ((dats qW m 0 c).before 6 t d))
    ∗ (∃ d, owns (c : Thread nD τ) (ms7 t) fullShare ((dats qW m 0 c).before 7 t d))
    ∗ (∃ d, owns (c : Thread nD τ) (ms8 t) fullShare ((dats qW m 0 c).before 8 t d)))

/-- and what it returns. -/
def bodyPost (c : Dev nD) (t : Fin cfg0.N) : sProp 𝕄 :=
  iprop((dats qW m 0 c).Φ t.succ ∗ (dats qW m 0 c).owesAt () t.succ
    ∗ (dats qW m 0 c).leavesExact 0 t
    ∗ (dats qW m 0 c).leavesExact 1 t
    ∗ (dats qW m 0 c).leavesExact 2 t
    ∗ (dats qW m 0 c).leavesExact 3 t
    ∗ (dats qW m 0 c).leavesExact 4 t
    ∗ (dats qW m 0 c).leavesExact 5 t
    ∗ (dats qW m 0 c).leavesExact 6 t
    ∗ (dats qW m 0 c).leavesExact 7 t
    ∗ (dats qW m 0 c).leavesExact 8 t)

set_option maxHeartbeats 8000000 in
theorem sound_body (c : Dev nD) (t : Fin cfg0.N) :
    bodyPre qW m c t ⊢ wp frame (wpE (defs₀ (F := F)) Variants.none c none) Set.univ (bodyAt0 t) (fun _ => bodyPost qW m c t) := by
  unfold bodyPre bodyPost bodyAt0
  simp only [before_0, before_1, before_2, before_3, before_4, before_5, before_6, before_7]
  rw [show (dats qW m 0 c).owesAt () t.succ = (dats qW m 0 c).owesAt () t.castSucc from rfl]
  rw [show (dats qW m 0 c).Φ t.succ = PhiS m c (t.val + 1) t.isLt from rfl, PhiS_succ]
  rw [show (dats qW m 0 c).leavesExact 0 t = owns (c : Thread nD τ) (ms0 t) fullShare ((dats qW m 0 c).after 0 t) from by
    unfold Dat.leavesExact; rw [live_0 t], after_0]
  rw [show (dats qW m 0 c).leavesExact 1 t = owns (c : Thread nD τ) (ms1 t) fullShare ((dats qW m 0 c).after 1 t) from by
    unfold Dat.leavesExact; rw [live_1 t], after_1]
  rw [show (dats qW m 0 c).leavesExact 2 t = owns (c : Thread nD τ) (ms2 t) fullShare ((dats qW m 0 c).after 2 t) from by
    unfold Dat.leavesExact; rw [live_2 t], after_2]
  rw [show (dats qW m 0 c).leavesExact 3 t = owns (c : Thread nD τ) (ms3 t) fullShare ((dats qW m 0 c).after 3 t) from by
    unfold Dat.leavesExact; rw [live_3 t], after_3]
  rw [show (dats qW m 0 c).leavesExact 4 t = owns (c : Thread nD τ) (ms4 t) fullShare ((dats qW m 0 c).after 4 t) from by
    unfold Dat.leavesExact; rw [live_4 t], after_4]
  rw [show (dats qW m 0 c).leavesExact 5 t = owns (c : Thread nD τ) (ms5 t) fullShare ((dats qW m 0 c).after 5 t) from by
    unfold Dat.leavesExact; rw [live_5 t], after_5]
  rw [show (dats qW m 0 c).leavesExact 6 t = owns (c : Thread nD τ) (ms6 t) fullShare ((dats qW m 0 c).after 6 t) from by
    unfold Dat.leavesExact; rw [live_6 t], after_6]
  rw [show (dats qW m 0 c).leavesExact 7 t = owns (c : Thread nD τ) (ms7 t) fullShare ((dats qW m 0 c).after 7 t) from by
    unfold Dat.leavesExact; rw [live_7 t], after_7]
  rw [show (dats qW m 0 c).leavesExact 8 t = owns (c : Thread nD τ) (ms8 t) fullShare ((dats qW m 0 c).after 8 t) from by
    unfold Dat.leavesExact; rw [live_8 t], after_8]
  by_cases h0 : t.val % 4 = 0
  · rw [outsAt_A m c t h0]
    unfold out8A sKA sVA; (try dsimp only)
    by_cases hz : t.val = 0
    · rw [PhiS_castSucc qW m c t, PhiS_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) ((hcondQ0 t).mpr h0) (iblk m c 0 t) (iblk m c 1 t) (iblk m c 2 t) (iblk m c 3 t) (iblk m c 4 t) (iblk m c 5 t) (iblk m c 6 t) (iblk m c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverKA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((hcondQ0 t).mpr h0))
          · unfold owns; iexists _; isplitr
            swap; · iexact HS1
            ipureintro; exact View.read_writes_of_cover _ _ _ _ _ (coverVA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((hcondQ0 t).mpr h0))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover8A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((hcondQ0 t).mpr h0))
    · rw [PhiS_castSucc qW m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) ((hcondQ0 t).mpr h0) (iblk m c 0 t) (iblk m c 1 t) (iblk m c 2 t) (iblk m c 3 t) (iblk m c 4 t) (iblk m c 5 t) (iblk m c 6 t) (iblk m c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      isplitl [HS1]; · iexists _; iexact HS1
      iintro ⟨H0, H1, H2, H3, H4, H5, H6, H7, ⟨%e8, H8⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverKA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((hcondQ0 t).mpr h0))
          · unfold owns; iexists _; isplitr
            swap; · iexact HS1
            ipureintro; exact View.read_writes_of_cover _ _ _ _ _ (coverVA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((hcondQ0 t).mpr h0))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover8A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((hcondQ0 t).mpr h0))
  · rw [outsAt_B m c t h0]
    unfold out8B; (try dsimp only)
    have hz : t.val ≠ 0 := fun h => h0 (by rw [h])
    rw [PhiS_castSucc qW m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcondQ0 t).mp h)) (iblk m c 0 t) (iblk m c 1 t) (iblk m c 2 t) (iblk m c 3 t) (iblk m c 4 t) (iblk m c 5 t) (iblk m c 6 t) (iblk m c 7 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, ⟨%e8, H8⟩, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover8B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) (fun h => h0 ((hcondQ0 t).mp h)) _ _)

/-- The library's body obligation, at every point. -/
theorem body_obligation (c : Dev nD) : BodyObligation (dats (F := F) qW m 0 c) (defs₀ (F := F)) Variants.none () Set.univ := fun t => by
  rw [bigSep_W0, bigSep_W0]
  exact sound_body qW m c t

/-- What the launch hands the region is the invariant before the first point. -/
theorem hin (c : Dev nD) : Pipeline.ΦA spec0 c ⊢ (dats qW m 0 c).Φ 0 := by
  rw [show (dats qW m 0 c).Φ 0 = PhiS m c 0 (Nat.zero_le _) from rfl, PhiS_zero m c 0 _ rfl]
  try exact Idealize.SL.BI.Entails.refl _

/-- After the last point the invariant gives it back: the carried buffers' named contents are forgotten. -/
theorem hout (c : Dev nD) : (dats qW m 0 c).Φ (Fin.last cfg0.N) ⊢ Pipeline.ΦA spec0 c := by
  have ht : (Fin.last cfg0.N).val ≠ 0 := by rw [Fin.val_last]; have : cfg0.N = 128 := N_0; omega
  rw [show (dats qW m 0 c).Φ (Fin.last cfg0.N) = PhiS m c (Fin.last cfg0.N).val (Nat.le_of_lt_succ (Fin.last cfg0.N).isLt) from rfl, PhiS_pos m c _ _ ht, PhiA_eq]
  iintro ⟨⟨HS0, HS1⟩, Hg⟩
  isplitl [HS0 HS1]
  · isplitl [HS0]
    · iexists _; iexact HS0
    iexists _; iexact HS1
  iexact Hg

end Cert.Kernel.Hand

end
-- ==== Proof.LaunchK.lean ====
/-
  The launch of the region when two input windows read ONE array.

  The pallas_call has nine windows; windows 0 and 1 both read the first argument (once as the whole slab of a head,
  once as the query tile), so the windows' arrays are eight distinct buffers, not nine. A points-to of a buffer can
  be held at a fraction of the full share, and two fractions that compose to the full share are together the whole
  buffer (`pointsTo_share`). So the proof data lend window 0 the left half and window 1 the right half of the first
  argument's buffer (`qOf`), every other window its own buffer whole; at the region's entry the eight buffers, each
  whole at the launch contents, are exactly the nine windows' arrays at those shares (`hsplit`). Both halves only
  permit reading, which is all an input window does.

  `run_of_body` is then the region's run for ANY such proof data: the launch memory is the entry contents (@main is
  the region alone), nothing is owed, the invariant is entered from and returned to the class invariant (the
  kernel's two scratch buffers at some contents, the generator register at some state), and every unscoped buffer
  of the core is a window's array, so no buffer bypasses the region. The conclusion reads each window's array in the
  final state: what the write-backs of all the grid points leave there.
-/
import proofs.«174484_j86217173500224_1_alg».proof.Proof.Gen.Kernel.Launch
import proofs.«174484_j86217173500224_1_alg».proof.Proof.Gen.Kernel.Points
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-- The TensorCore buffers' contents when the region is entered: the launch memory itself (no host operation
    precedes the region). -/
abbrev V (m : (ℓ : Loc nD τ sig) → Buf (Elt F) ℓ) (c : Dev nD) (b : Ref sig .tc) : Buf (Elt F) ((c : Thread nD τ).loc b) :=
  m ((c : Thread nD τ).loc b)

/-- The share each input window holds of its array: windows 0 and 1 read the same array and hold its two halves,
    which join to the full share; every other window's array is its own, held whole. -/
def qOf : Fin 9 → PosShare TreeShare := fun w =>
  if w = 0 then (fullShare : PosShare TreeShare).left else if w = 1 then (fullShare : PosShare TreeShare).right else fullShare

/-- At the region's entry: the eight distinct buffers behind the windows' arrays, each whole at the full share at the
    launch contents, are the nine windows' arrays at the proof data's shares — the first argument's buffer split into
    its two halves for windows 0 and 1, every other buffer handed to its one window whole. -/
theorem hsplit (m : (ℓ : Loc nD τ sig) → Buf (Elt F) ℓ) (c : Dev nD) (dat : Dat τ (Elt F) Unit ℕ (UR sig nD τ) ℕ cfg0 c)
    (hA : ∀ w, dat.A w = V m c (Pipeline.arrRef spec0 w)) (hq : ∀ w, dat.q w = qOf w) :
    (Pipeline.arrBufs spec0 c (V m c) : sProp 𝕄) ⊢ dat.arrays (dat.arrAt · 0) := by
  unfold Pipeline.arrBufs Dat.arrays
  rw [bigSep_eq_bigSepL_of_eq [main_arg0, main_arg1, main_arg2, main_arg3, main_arg4, main_arg5, main_arg6, main_v0] (by decide) (by decide), bigSep_W0]
  -- each window's conjunct: its array is a whole buffer, and at point 0 it holds the entry contents
  have e : ∀ w : Fin 9, (((cfg0.win w).arr.view.loc (c.tc : Thread nD τ)) ↦[(cfg0.win w).arr.view.set]{dat.share w} (fun x => dat.arrAt x 0) w : sProp 𝕄)
      = (((c.tc : Thread nD τ).loc (Pipeline.arrRef spec0 w)) ↦{dat.share w} V m c (Pipeline.arrRef spec0 w)) := fun w => by
    rw [(arr_whole0 w).set_eq_univ, ← hA w]; rfl
  rw [e 0, e 1, e 2, e 3, e 4, e 5, e 6, e 7, e 8]
  -- the shares: the two readers of the first array hold its halves, every other window the whole
  have hs0 : dat.share 0 = (fullShare : PosShare TreeShare).left := by unfold Dat.share; rw [if_neg (by decide), hq]; rfl
  have hs1 : dat.share 1 = (fullShare : PosShare TreeShare).right := by unfold Dat.share; rw [if_neg (by decide), hq]; rfl
  have hs2 : dat.share 2 = fullShare := by unfold Dat.share; rw [if_neg (by decide), hq]; rfl
  have hs3 : dat.share 3 = fullShare := by unfold Dat.share; rw [if_neg (by decide), hq]; rfl
  have hs4 : dat.share 4 = fullShare := by unfold Dat.share; rw [if_neg (by decide), hq]; rfl
  have hs5 : dat.share 5 = fullShare := by unfold Dat.share; rw [if_neg (by decide), hq]; rfl
  have hs6 : dat.share 6 = fullShare := by unfold Dat.share; rw [if_neg (by decide), hq]; rfl
  have hs7 : dat.share 7 = fullShare := by unfold Dat.share; rw [if_neg (by decide), hq]; rfl
  have hs8 : dat.share 8 = fullShare := by unfold Dat.share; rw [if_pos (by decide)]
  rw [hs0, hs1, hs2, hs3, hs4, hs5, hs6, hs7, hs8]
  show iprop((((c.tc : Thread nD τ).loc main_arg0) ↦{fullShare} V m c main_arg0) ∗ (((c.tc : Thread nD τ).loc main_arg1) ↦{fullShare} V m c main_arg1)
        ∗ (((c.tc : Thread nD τ).loc main_arg2) ↦{fullShare} V m c main_arg2) ∗ (((c.tc : Thread nD τ).loc main_arg3) ↦{fullShare} V m c main_arg3)
        ∗ (((c.tc : Thread nD τ).loc main_arg4) ↦{fullShare} V m c main_arg4) ∗ (((c.tc : Thread nD τ).loc main_arg5) ↦{fullShare} V m c main_arg5)
        ∗ (((c.tc : Thread nD τ).loc main_arg6) ↦{fullShare} V m c main_arg6) ∗ (((c.tc : Thread nD τ).loc main_v0) ↦{fullShare} V m c main_v0))
    ⊢ (iprop((((c.tc : Thread nD τ).loc main_arg0) ↦{(fullShare : PosShare TreeShare).left} V m c main_arg0)
        ∗ (((c.tc : Thread nD τ).loc main_arg0) ↦{(fullShare : PosShare TreeShare).right} V m c main_arg0)
        ∗ (((c.tc : Thread nD τ).loc main_arg1) ↦{fullShare} V m c main_arg1)
        ∗ (((c.tc : Thread nD τ).loc main_arg2) ↦{fullShare} V m c main_arg2) ∗ (((c.tc : Thread nD τ).loc main_arg3) ↦{fullShare} V m c main_arg3)
        ∗ (((c.tc : Thread nD τ).loc main_arg4) ↦{fullShare} V m c main_arg4) ∗ (((c.tc : Thread nD τ).loc main_arg5) ↦{fullShare} V m c main_arg5)
        ∗ (((c.tc : Thread nD τ).loc main_arg6) ↦{fullShare} V m c main_arg6) ∗ (((c.tc : Thread nD τ).loc main_v0) ↦{fullShare} V m c main_v0)) : sProp 𝕄)
  iintro ⟨H0, H1, H2, H3, H4, H5, H6, H7⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  isplitl [H3]; · iexact H3
  isplitl [H4]; · iexact H4
  isplitl [H5]; · iexact H5
  isplitl [H6]; · iexact H6
  iexact H7

/-- THE RUN of the region from any proof data that lends the shares `qOf`, enters at the launch memory, owes nothing,
    meets the (loose) body obligation, and whose invariant is entered from and returned to the class invariant
    (the kernel's scratch at some contents, the generator register at some state): every weakly fair execution of
    @main terminates, and in every final state each window's array holds what the write-backs of all the points leave. -/
theorem run_of_body (m : (ℓ : Loc nD τ sig) → Buf (Elt F) ℓ) (ρ : Dev nD → PrngReg)
    (dats : (p : Fin 1) → (c : Dev nD) → Dat τ (Elt F) Unit ℕ (UR sig nD τ) ℕ (cfgs p) c)
    (hA : ∀ c w, (dats 0 c).A w = V m c (Pipeline.arrRef spec0 w)) (hq : ∀ c w, (dats 0 c).q w = qOf w)
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) ⟨m, fun _ => 0, ρ⟩
      (fun r => ∀ c : Dev nD, ∀ w : Fin 9, r.2.mem ((spec0 w).arr.view.loc (c.tc : Thread nD τ)) = (dats 0 c).arrAt w cfg0.N) := by
  classical
  exact Pipeline.θ_run_region_pf (fun q => (cfgs q).toPCfg (Val := Elt F)) (fun q => (cfgs q).toPCfg_adm) dats () cellOf_inj 0
    winFacts₀0 (Pipeline.OwnSemFacts.none spec0) (Pipeline.PreFacts.none _) emb₁ defs₀ Variants.none m ρ main
    hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := Pipeline.hmain_region cfgs 0 defs₀ Variants.none m main (fun _ => rfl))
    (hsplit := fun c => hsplit m c (dats 0 c) (hA c) (hq c))
    (hpf := fun _ k => k.elim0)
    (X := fun c => iprop(∃ r, prngReg c r)) (Y := fun c => iprop(∃ r, prngReg c r))
    (Z := fun _ => iprop(emp))
    (hX := fun c => by
      iintro ⟨-, -, -, -, Hp, -⟩; imodintro
      isplitl [Hp]; · iexists _; iexact Hp
      iempintro)
    (hin := fun c => (show _ ⊢ Pipeline.ΦA spec0 c from by
        unfold Pipeline.ΦA; iintro ⟨Hp, -, Hr⟩
        isplitl [Hr] <;> iassumption).trans (hin c))
    (hout := fun c => (hout c).trans (by
        rw [Pipeline.ownSems0_none]; unfold Pipeline.ΦA
        iintro ⟨Hr, Hp⟩
        isplitl [Hp]; · iexact Hp
        isplitr; · iempintro
        iexact Hr))
    (QY := fun _ _ => True)
    (hY := fun c s' => by
      iintro ⟨-, -, HSI⟩
      imodintro
      isplitr; · ipureintro; trivial
      iexact HSI)
    (hQ := fun s h c w => (h c).1 w)

end Cert.Kernel.Hand

end
-- ==== Proof.RunK.lean ====
/-
  The region's run and the frame: the body obligation at every point, the carried invariant at both ends and the split
  of the shared array's buffer between its two windows give the run; every input window's array ends as it began.
-/
import proofs.«174484_j86217173500224_1_alg».proof.Proof.Gen.Kernel.Launch
import proofs.«174484_j86217173500224_1_alg».proof.Proof.Gen.Kernel.Skeleton
import proofs.«174484_j86217173500224_1_alg».proof.Proof.Gen.Kernel.Points
import proofs.«174484_j86217173500224_1_alg».proof.Proof.ObligK
import proofs.«174484_j86217173500224_1_alg».proof.Proof.LaunchK
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution terminates, faults nowhere, and leaves every window's array at what the proof data
    computes from the write-backs. -/
theorem run_main : θ_run defs (onTc (τ := τ) (main (F := F))) ⟨m, fun _ => 0, ρ⟩
    (fun r => ∀ c : Dev nD, ∀ w : Fin 9, r.2.mem ((spec0 w).arr.view.loc (c.tc : Thread nD τ)) = (dats qOf m 0 c).arrAt w cfg0.N) :=
  run_of_body m ρ (dats qOf m) (A_eq qOf m) (q_eq qOf m) (fun _ _ => rfl) (fun c => (body_obligation qOf m c).loose) (hin qOf m) (hout qOf m)

/-- An input window's array is never written. -/
theorem kept (c : Dev nD) (w : Fin 9) (hw : (cfg0.win w).isOut = false) : (dats qOf m 0 c).arrAt w cfg0.N = Vm m c (Pipeline.arrRef spec0 w) :=
  ((dats qOf m 0 c).arrAt_in w hw _).trans (A_eq qOf m c w)

/-- The frame: the seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c 0).trans (kept m c 0 rfl), (h c 2).trans (kept m c 2 rfl), (h c 3).trans (kept m c 3 rfl), (h c 4).trans (kept m c 4 rfl),
     (h c 5).trans (kept m c 5 rfl), (h c 6).trans (kept m c 6 rfl), (h c 7).trans (kept m c 7 rfl)⟩) (run_main m ρ)

end Cert.Kernel.Hand

end
-- ==== Proof.BodyAKI.lean ====
/-
  The kernel body at one grid point, in its two control cases.

  At a point whose query-tile coordinate is 0 the body first fills the two carried buffers from the head's whole
  slab of x (the key and the value projections), then computes the tile's output from them; at every other point it
  only reads the carried buffers. Each case is stated over arbitrary whole memrefs: the inputs' buffers are handed in
  at named contents and come back unchanged, and what each written buffer ends with is a list of stored pieces over
  whatever it held before.
-/
import proofs.«174484_j86217173500224_1_alg».proof.Proof.Gen.KernelIdeal.Launch
import proofs.«174484_j86217173500224_1_alg».proof.Proof.Gen.KernelIdeal.Skeleton
import proofs.«174484_j86217173500224_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch: the query-tile coordinate is 0. -/
abbrev condQ0 (i : grid0.Coords) : Prop := (Scalar.cmpi .ne (Scalar.extui (Scalar.cmpi .eq (BitVec.ofNat 32 (i 2).val) 0#32)) 0#32) = 1#1

/-- Over the grid in row-major order the query-tile coordinate is 0 exactly at the points ≡ 0 (mod 4). -/
theorem hcondQ0 : ∀ t : Fin cfg0.N, condQ0 (grid0.coords t) ↔ t.val % 4 = 0 :=
  (by decide +kernel : ∀ t : Fin grid0.N, condQ0 (grid0.coords t) ↔ t.val % 4 = 0)

set_option maxHeartbeats 4000000 in
/-- First tile of a head: both carried buffers are overwritten whole, then the output buffer. -/
noncomputable def kernelRunA (c : Dev nD) (i : grid0.Coords) (arg3 : Memref sig .tc .vmem S1x1x2048x64 .f32) (harg3 : arg3.IsWhole) (arg4 : Memref sig .tc .vmem S1x1x512x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S1x1x512x64 .f32) (harg11 : arg11.IsWhole) (arg12 : Memref sig .tc .vmem S2048x64 .bf16) (harg12 : arg12.IsWhole) (arg13 : Memref sig .tc .vmem S2048x64 .bf16) (harg13 : arg13.IsWhole) (hc0 : condQ0 i)
    (x0 : Vec F S1x1x2048x64 .f32) (x1 : Vec F S1x1x512x64 .f32) (x2 : Vec F S64x64 .f32) (x3 : Vec F S64 .f32) (x4 : Vec F S64x64 .f32) (x5 : Vec F S64 .f32) (x6 : Vec F S64x64 .f32) (x7 : Vec F S64 .f32) :
    Σ' (L8 : List (View.Piece (Elt F) S1x1x512x64 .f32)) (LS0 : List (View.Piece (Elt F) S2048x64 .bf16)), { LS1 : List (View.Piece (Elt F) S2048x64 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
            ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
                ∗ (∃ f, arg11.view.loc (c : Thread nD τ) ↦[arg11.view.set]{fullShare} arg11.view.writes (Elt F) f L8)
                ∗ (∃ f, arg12.view.loc (c : Thread nD τ) ↦[arg12.view.set]{fullShare} arg12.view.writes (Elt F) f LS0)
                ∗ (∃ f, arg13.view.loc (c : Thread nD τ) ↦[arg13.view.set]{fullShare} arg13.view.writes (Elt F) f LS1)) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; iexact H8
    isplitl [HS0]
    · iexists _; iexact HS0
    iexists _; iexact HS1

end Cert.KernelIdeal.Hand

end
-- ==== Proof.BodyBKI.lean ====
/-
  The kernel body at a grid point whose query-tile coordinate is not 0: the two carried buffers are only read, at the
  contents the head's first tile left in them, and only the output buffer is written.
-/
import proofs.«174484_j86217173500224_1_alg».proof.Proof.Gen.KernelIdeal.Launch
import proofs.«174484_j86217173500224_1_alg».proof.Proof.Gen.KernelIdeal.Skeleton
import proofs.«174484_j86217173500224_1_alg».proof.Proof.Gen.KernelIdeal.Points
import proofs.«174484_j86217173500224_1_alg».proof.Proof.BodyAKI
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A later tile of a head: the carried buffers come back as they were; the output buffer is overwritten whole. -/
noncomputable def kernelRunB (c : Dev nD) (i : grid0.Coords) (arg3 : Memref sig .tc .vmem S1x1x2048x64 .f32) (harg3 : arg3.IsWhole) (arg4 : Memref sig .tc .vmem S1x1x512x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S1x1x512x64 .f32) (harg11 : arg11.IsWhole) (arg12 : Memref sig .tc .vmem S2048x64 .bf16) (harg12 : arg12.IsWhole) (arg13 : Memref sig .tc .vmem S2048x64 .bf16) (harg13 : arg13.IsWhole) (hc0 : ¬condQ0 i)
    (x0 : Vec F S1x1x2048x64 .f32) (x1 : Vec F S1x1x512x64 .f32) (x2 : Vec F S64x64 .f32) (x3 : Vec F S64 .f32) (x4 : Vec F S64x64 .f32) (x5 : Vec F S64 .f32) (x6 : Vec F S64x64 .f32) (x7 : Vec F S64 .f32) (xs0 xs1 : Vec F S2048x64 .bf16) :
    { L8 : List (View.Piece (Elt F) S1x1x512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
            ∗ (∃ d, owns (c : Thread nD τ) arg11 fullShare d) ∗ owns (c : Thread nD τ) arg12 fullShare xs0 ∗ owns (c : Thread nD τ) arg13 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7
                ∗ (∃ f, arg11.view.loc (c : Thread nD τ) ↦[arg11.view.set]{fullShare} arg11.view.writes (Elt F) f L8)
                ∗ owns (c : Thread nD τ) arg12 fullShare xs0 ∗ owns (c : Thread nD τ) arg13 fullShare xs1) -∗ K ⟨⟩))
          ⊢ wp frame (wpE (defs₀ (F := F)) Variants.none c none) E (cc0__attn_kernel i arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__attn_kernel_eq_skeleton]; unfold cc0__attn_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5; obtain rfl := harg9.eq_unread hf6; obtain rfl := harg10.eq_unread hf7
    obtain rfl := harg12.eq_unread hfs0; obtain rfl := harg13.eq_unread hfs1
    sl_exec (disch := first | exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; iexact H8
    isplitl [HS0]
    · iexists _; isplitr; · ipureintro; exact harg12.read_unread _
      iexact HS0
    iexists _; isplitr; · ipureintro; exact harg13.read_unread _
    iexact HS1

end Cert.KernelIdeal.Hand

end
-- ==== Proof.FrameKI.lean ====
/-
  The run of the region, point by point.

  The grid has 2·16·4 = 128 points in row-major order, so the points ≡ 0 (mod 4) are the first query tiles of the 32
  heads. What the three written buffers hold after each point is defined by recursion on the point: at a first tile the
  two carried buffers take the key and value projections of the head's slab of x and the output buffer the tile's
  result; at a later tile the carried buffers keep what the point before left and the output buffer takes the tile's
  result computed from them. The invariant between points holds the two carried buffers at exactly those contents;
  every input window's staging buffer holds its block of its array at every point, fetched there or not.
-/
import proofs.«174484_j86217173500224_1_alg».proof.Proof.Gen.KernelIdeal.Launch
import proofs.«174484_j86217173500224_1_alg».proof.Proof.Gen.KernelIdeal.Skeleton
import proofs.«174484_j86217173500224_1_alg».proof.Proof.Gen.KernelIdeal.Points
import proofs.«174484_j86217173500224_1_alg».proof.Proof.BodyAKI
import proofs.«174484_j86217173500224_1_alg».proof.Proof.BodyBKI
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (qW : Fin 9 → PosShare TreeShare)
variable (m : (ℓ : Loc nD τ sig) → Buf (Elt F) ℓ) (ρ : Dev nD → PrngReg)

/-- The buffers as the region finds them: @main has no host line before it. -/
abbrev Vm (c : Dev nD) (b : Ref sig .tc) : Buf (Elt F) ((c : Thread nD τ).loc b) := m ((c : Thread nD τ).loc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (Vm m c (Pipeline.arrRef spec0 w))

/-- Input window 0's current staging buffer holds its block at every point, fetched there or not. -/
theorem before_of_0 {c : Dev nD} (dat : Dat τ (Elt F) Unit ℕ (UR sig nD τ) ℕ cfg0 c) (hA : dat.A 0 = Vm m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_of_1 {c : Dev nD} (dat : Dat τ (Elt F) Unit ℕ (UR sig nD τ) ℕ cfg0 c) (hA : dat.A 1 = Vm m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_of_2 {c : Dev nD} (dat : Dat τ (Elt F) Unit ℕ (UR sig nD τ) ℕ cfg0 c) (hA : dat.A 2 = Vm m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before_of_3 {c : Dev nD} (dat : Dat τ (Elt F) Unit ℕ (UR sig nD τ) ℕ cfg0 c) (hA : dat.A 3 = Vm m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before_of_4 {c : Dev nD} (dat : Dat τ (Elt F) Unit ℕ (UR sig nD τ) ℕ cfg0 c) (hA : dat.A 4 = Vm m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before_of_5 {c : Dev nD} (dat : Dat τ (Elt F) Unit ℕ (UR sig nD τ) ℕ cfg0 c) (hA : dat.A 5 = Vm m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before_of_6 {c : Dev nD} (dat : Dat τ (Elt F) Unit ℕ (UR sig nD τ) ℕ cfg0 c) (hA : dat.A 6 = Vm m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before_of_7 {c : Dev nD} (dat : Dat τ (Elt F) Unit ℕ (UR sig nD τ) ℕ cfg0 c) (hA : dat.A 7 = Vm m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point t, spelled as the pipeline passes it, and its wholeness. -/
abbrev ms0 (t : Fin cfg0.N) : Memref sig .tc .vmem S1x1x2048x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x512x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x64 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x64 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S64 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x512x64 .f32 := win0_8.stage (cfg0.slots t 8)
abbrev hs8 (t : Fin cfg0.N) : (ms8 t).IsWhole := hstage0_8 ((cfg0.slots t 8).cast nbuf0_8)
/-- The two carried buffers, whole. -/
abbrev scM0 : Memref sig .tc .vmem S2048x64 .bf16 := Memref.whole cc0_scratch0
abbrev scM1 : Memref sig .tc .vmem S2048x64 .bf16 := Memref.whole cc0_scratch1
abbrev VS0 : View sig .tc .vmem S2048x64 .bf16 := scM0.view
abbrev VS1 : View sig .tc .vmem S2048x64 .bf16 := scM1.view
/-- One staging buffer of the output window, through which its contents are stated (the choice does not matter). -/
abbrev VO8 : View sig .tc .vmem S1x1x512x64 .f32 := (Memref.whole cc0_stg8_0 : Memref sig .tc .vmem S1x1x512x64 .f32).view

/-- The invariant the launch hands the region: the two carried buffers at some contents, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the written buffers hold after a point of each case -/

section Cases
variable (c : Dev nD) (i : grid0.Coords) (arg3 : Memref sig .tc .vmem S1x1x2048x64 .f32) (harg3 : arg3.IsWhole) (arg4 : Memref sig .tc .vmem S1x1x512x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S1x1x512x64 .f32) (harg11 : arg11.IsWhole) (arg12 : Memref sig .tc .vmem S2048x64 .bf16) (harg12 : arg12.IsWhole) (arg13 : Memref sig .tc .vmem S2048x64 .bf16) (harg13 : arg13.IsWhole)
  (x0 : Vec F S1x1x2048x64 .f32) (x1 : Vec F S1x1x512x64 .f32) (x2 : Vec F S64x64 .f32) (x3 : Vec F S64 .f32) (x4 : Vec F S64x64 .f32) (x5 : Vec F S64 .f32) (x6 : Vec F S64x64 .f32) (x7 : Vec F S64 .f32)

/-- First tile: the output buffer, the key buffer, the value buffer — the stored pieces read back. -/
def out8A (hc0 : condQ0 i) : Vec F S1x1x512x64 .f32 :=
  VO8.read (Elt F) (VO8.writes (Elt F) VO8.junk (kernelRunA c i arg3 harg3 arg4 harg4 arg5 harg5 arg6 harg6 arg7 harg7 arg8 harg8 arg9 harg9 arg10 harg10 arg11 harg11 arg12 harg12 arg13 harg13 hc0 x0 x1 x2 x3 x4 x5 x6 x7).1)
def sKA (hc0 : condQ0 i) : Vec F S2048x64 .bf16 :=
  VS0.read (Elt F) (VS0.writes (Elt F) VS0.junk (kernelRunA c i arg3 harg3 arg4 harg4 arg5 harg5 arg6 harg6 arg7 harg7 arg8 harg8 arg9 harg9 arg10 harg10 arg11 harg11 arg12 harg12 arg13 harg13 hc0 x0 x1 x2 x3 x4 x5 x6 x7).2.1)
def sVA (hc0 : condQ0 i) : Vec F S2048x64 .bf16 :=
  VS1.read (Elt F) (VS1.writes (Elt F) VS1.junk (kernelRunA c i arg3 harg3 arg4 harg4 arg5 harg5 arg6 harg6 arg7 harg7 arg8 harg8 arg9 harg9 arg10 harg10 arg11 harg11 arg12 harg12 arg13 harg13 hc0 x0 x1 x2 x3 x4 x5 x6 x7).2.2.1)
/-- Later tile: the output buffer, from the carried contents. -/
def out8B (hc0 : ¬condQ0 i) (xs0 xs1 : Vec F S2048x64 .bf16) : Vec F S1x1x512x64 .f32 :=
  VO8.read (Elt F) (VO8.writes (Elt F) VO8.junk (kernelRunB c i arg3 harg3 arg4 harg4 arg5 harg5 arg6 harg6 arg7 harg7 arg8 harg8 arg9 harg9 arg10 harg10 arg11 harg11 arg12 harg12 arg13 harg13 hc0 x0 x1 x2 x3 x4 x5 x6 x7 xs0 xs1).1)

/-- The stored pieces cover each written buffer (each is one whole-buffer store). -/
theorem cover8A (hc0 : condQ0 i) (y : S1x1x512x64.Idx) :
    ∃ pc ∈ (kernelRunA c i arg3 harg3 arg4 harg4 arg5 harg5 arg6 harg6 arg7 harg7 arg8 harg8 arg9 harg9 arg10 harg10 arg11 harg11 arg12 harg12 arg13 harg13 hc0 x0 x1 x2 x3 x4 x5 x6 x7).1, y ∈ pc.1.set :=
  View.cover_of_tiledL (kernelRunA c i arg3 harg3 arg4 harg4 arg5 harg5 arg6 harg6 arg7 harg7 arg8 harg8 arg9 harg9 arg10 harg10 arg11 harg11 arg12 harg12 arg13 harg13 hc0 x0 x1 x2 x3 x4 x5 x6 x7).1 S1x1x512x64.size (by sl_kernel_rfl) y
theorem coverKA (hc0 : condQ0 i) (y : S2048x64.Idx) :
    ∃ pc ∈ (kernelRunA c i arg3 harg3 arg4 harg4 arg5 harg5 arg6 harg6 arg7 harg7 arg8 harg8 arg9 harg9 arg10 harg10 arg11 harg11 arg12 harg12 arg13 harg13 hc0 x0 x1 x2 x3 x4 x5 x6 x7).2.1, y ∈ pc.1.set :=
  View.cover_of_tiledL (kernelRunA c i arg3 harg3 arg4 harg4 arg5 harg5 arg6 harg6 arg7 harg7 arg8 harg8 arg9 harg9 arg10 harg10 arg11 harg11 arg12 harg12 arg13 harg13 hc0 x0 x1 x2 x3 x4 x5 x6 x7).2.1 S2048x64.size (by sl_kernel_rfl) y
theorem coverVA (hc0 : condQ0 i) (y : S2048x64.Idx) :
    ∃ pc ∈ (kernelRunA c i arg3 harg3 arg4 harg4 arg5 harg5 arg6 harg6 arg7 harg7 arg8 harg8 arg9 harg9 arg10 harg10 arg11 harg11 arg12 harg12 arg13 harg13 hc0 x0 x1 x2 x3 x4 x5 x6 x7).2.2.1, y ∈ pc.1.set :=
  View.cover_of_tiledL (kernelRunA c i arg3 harg3 arg4 harg4 arg5 harg5 arg6 harg6 arg7 harg7 arg8 harg8 arg9 harg9 arg10 harg10 arg11 harg11 arg12 harg12 arg13 harg13 hc0 x0 x1 x2 x3 x4 x5 x6 x7).2.2.1 S2048x64.size (by sl_kernel_rfl) y
theorem cover8B (hc0 : ¬condQ0 i) (xs0 xs1 : Vec F S2048x64 .bf16) (y : S1x1x512x64.Idx) :
    ∃ pc ∈ (kernelRunB c i arg3 harg3 arg4 harg4 arg5 harg5 arg6 harg6 arg7 harg7 arg8 harg8 arg9 harg9 arg10 harg10 arg11 harg11 arg12 harg12 arg13 harg13 hc0 x0 x1 x2 x3 x4 x5 x6 x7 xs0 xs1).1, y ∈ pc.1.set :=
  View.cover_of_tiledL (kernelRunB c i arg3 harg3 arg4 harg4 arg5 harg5 arg6 harg6 arg7 harg7 arg8 harg8 arg9 harg9 arg10 harg10 arg11 harg11 arg12 harg12 arg13 harg13 hc0 x0 x1 x2 x3 x4 x5 x6 x7 xs0 xs1).1 S1x1x512x64.size (by sl_kernel_rfl) y

end Cases

/-! ## The accumulation over the points -/

/-- After the body at position n: (the output buffer, the key buffer, the value buffer). -/
def outsAt (c : Dev nD) : (n : ℕ) → n < cfg0.N → Vec F S1x1x512x64 .f32 × Vec F S2048x64 .bf16 × Vec F S2048x64 .bf16
  | 0, hn =>
    (out8A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM0 (Memref.isWhole_whole _) scM1 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) ((hcondQ0 ⟨0, hn⟩).mpr (Nat.zero_mod _)),
     sKA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM0 (Memref.isWhole_whole _) scM1 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) ((hcondQ0 ⟨0, hn⟩).mpr (Nat.zero_mod _)),
     sVA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) scM0 (Memref.isWhole_whole _) scM1 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) ((hcondQ0 ⟨0, hn⟩).mpr (Nat.zero_mod _)))
  | n + 1, hn =>
    if h0 : (n + 1) % 4 = 0 then
      (out8A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) ((hcondQ0 ⟨n + 1, hn⟩).mpr h0),
       sKA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) ((hcondQ0 ⟨n + 1, hn⟩).mpr h0),
       sVA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) ((hcondQ0 ⟨n + 1, hn⟩).mpr h0))
    else
      (out8B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) scM0 (Memref.isWhole_whole _) scM1 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (fun h => h0 ((hcondQ0 ⟨n + 1, hn⟩).mp h))
          (outsAt c n (Nat.lt_of_succ_lt hn)).2.1 (outsAt c n (Nat.lt_of_succ_lt hn)).2.2,
       (outsAt c n (Nat.lt_of_succ_lt hn)).2.1, (outsAt c n (Nat.lt_of_succ_lt hn)).2.2)

/-- At a first tile. -/
theorem outsAt_A (c : Dev nD) (t : Fin cfg0.N) (h0 : t.val % 4 = 0) :
    outsAt m c t.val t.isLt =
      (out8A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((hcondQ0 t).mpr h0),
       sKA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((hcondQ0 t).mpr h0),
       sVA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((hcondQ0 t).mpr h0)) := by
  obtain ⟨n, hn⟩ := t
  cases n with
  | zero => exact rfl
  | succ n => exact (dif_pos h0).trans rfl

/-- At a later tile: over what the point before left. -/
theorem outsAt_B (c : Dev nD) (t : Fin cfg0.N) (h0 : ¬t.val % 4 = 0) :
    outsAt m c t.val t.isLt =
      (out8B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) (fun h => h0 ((hcondQ0 t).mp h))
          (outsAt m c (t.val - 1) (Nat.lt_of_le_of_lt (Nat.sub_le _ _) t.isLt)).2.1 (outsAt m c (t.val - 1) (Nat.lt_of_le_of_lt (Nat.sub_le _ _) t.isLt)).2.2,
       (outsAt m c (t.val - 1) (Nat.lt_of_le_of_lt (Nat.sub_le _ _) t.isLt)).2.1, (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The invariant before position n: at the start what the launch hands over; afterwards the two carried buffers at
    what the point before left in them, and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt m c n hn).2.1) ∗ owns (c : Thread nD τ) scM1 fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0 fullShare ((outsAt m c n hn).2.1) ∗ owns (c : Thread nD τ) scM1 fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM0 fullShare ((outsAt m c (n - 1) (by omega)).2.1) ∗ owns (c : Thread nD τ) scM1 fullShare ((outsAt m c (n - 1) (by omega)).2.2)) ∗ (∃ r, prngReg c r)) := by
  cases n with
  | zero => exact absurd rfl hz
  | succ n => rfl

/-! ## The proof data -/

/-- The arrays as the region finds them; after the body at point t each input's buffer at its block and the output's
    at the accumulation's first component; the invariant above; the shares of the arrays as given; nothing owed. -/
def dats (_ : Fin 1) (c : Dev nD) : Dat τ (Elt F) Unit ℕ (UR sig nD τ) ℕ cfg0 c where
  A w := Vm m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt).1
  Φ t := PhiS m c t.val (Nat.le_of_lt_succ t.isLt)
  q := qW
  owed _ := 0

theorem A_eq (c : Dev nD) (w : Fin cfg0.W) : (dats qW m 0 c).A w = Vm m c (Pipeline.arrRef spec0 w) := by
  dsimp only [dats]
theorem q_eq (c : Dev nD) (w : Fin cfg0.W) : (dats qW m 0 c).q w = qW w := by
  dsimp only [dats]
theorem PhiS_castSucc (c : Dev nD) (t : Fin cfg0.N) :
    (dats qW m 0 c).Φ t.castSucc = PhiS m c t.val (Nat.le_of_lt t.isLt) := by
  dsimp only [dats]; simp only [Fin.coe_castSucc]
theorem after_0 (c : Dev nD) (t : Fin cfg0.N) : (dats qW m 0 c).after 0 t = iblk m c 0 t := by dsimp only [dats]
theorem after_1 (c : Dev nD) (t : Fin cfg0.N) : (dats qW m 0 c).after 1 t = iblk m c 1 t := by dsimp only [dats]
theorem after_2 (c : Dev nD) (t : Fin cfg0.N) : (dats qW m 0 c).after 2 t = iblk m c 2 t := by dsimp only [dats]
theorem after_3 (c : Dev nD) (t : Fin cfg0.N) : (dats qW m 0 c).after 3 t = iblk m c 3 t := by dsimp only [dats]
theorem after_4 (c : Dev nD) (t : Fin cfg0.N) : (dats qW m 0 c).after 4 t = iblk m c 4 t := by dsimp only [dats]
theorem after_5 (c : Dev nD) (t : Fin cfg0.N) : (dats qW m 0 c).after 5 t = iblk m c 5 t := by dsimp only [dats]
theorem after_6 (c : Dev nD) (t : Fin cfg0.N) : (dats qW m 0 c).after 6 t = iblk m c 6 t := by dsimp only [dats]
theorem after_7 (c : Dev nD) (t : Fin cfg0.N) : (dats qW m 0 c).after 7 t = iblk m c 7 t := by dsimp only [dats]
theorem after_8 (c : Dev nD) (t : Fin cfg0.N) : (dats qW m 0 c).after 8 t = (outsAt m c t.val t.isLt).1 := by dsimp only [dats]
theorem before_0 (c : Dev nD) (t : Fin cfg0.N) (d) : (dats qW m 0 c).before 0 t d = iblk m c 0 t :=
  before_of_0 m (dats qW m 0 c) (A_eq qW m c 0) (after_0 qW m c) t d
theorem before_1 (c : Dev nD) (t : Fin cfg0.N) (d) : (dats qW m 0 c).before 1 t d = iblk m c 1 t :=
  before_of_1 m (dats qW m 0 c) (A_eq qW m c 1) (after_1 qW m c) t d
theorem before_2 (c : Dev nD) (t : Fin cfg0.N) (d) : (dats qW m 0 c).before 2 t d = iblk m c 2 t :=
  before_of_2 m (dats qW m 0 c) (A_eq qW m c 2) (after_2 qW m c) t d
theorem before_3 (c : Dev nD) (t : Fin cfg0.N) (d) : (dats qW m 0 c).before 3 t d = iblk m c 3 t :=
  before_of_3 m (dats qW m 0 c) (A_eq qW m c 3) (after_3 qW m c) t d
theorem before_4 (c : Dev nD) (t : Fin cfg0.N) (d) : (dats qW m 0 c).before 4 t d = iblk m c 4 t :=
  before_of_4 m (dats qW m 0 c) (A_eq qW m c 4) (after_4 qW m c) t d
theorem before_5 (c : Dev nD) (t : Fin cfg0.N) (d) : (dats qW m 0 c).before 5 t d = iblk m c 5 t :=
  before_of_5 m (dats qW m 0 c) (A_eq qW m c 5) (after_5 qW m c) t d
theorem before_6 (c : Dev nD) (t : Fin cfg0.N) (d) : (dats qW m 0 c).before 6 t d = iblk m c 6 t :=
  before_of_6 m (dats qW m 0 c) (A_eq qW m c 6) (after_6 qW m c) t d
theorem before_7 (c : Dev nD) (t : Fin cfg0.N) (d) : (dats qW m 0 c).before 7 t d = iblk m c 7 t :=
  before_of_7 m (dats qW m 0 c) (A_eq qW m c 7) (after_7 qW m c) t d

end Cert.KernelIdeal.Hand

end
-- ==== Proof.PiecesKI.lean ====
/-
  What the stored pieces amount to. Each written buffer takes one whole-buffer store per point, so the pieces read
  back are that store's payload; a load of a carried buffer after the store of the same point reads the payload just
  stored. Hence at a first tile the carried buffers end at the key and value projections of the slab and the output
  at the tile's result computed from those; at a later tile the output is the tile's result from the carried contents.
-/
import proofs.«174484_j86217173500224_1_alg».proof.Proof.Gen.KernelIdeal.Launch
import proofs.«174484_j86217173500224_1_alg».proof.Proof.Gen.KernelIdeal.Skeleton
import proofs.«174484_j86217173500224_1_alg».proof.Proof.Gen.KernelIdeal.Points
import proofs.«174484_j86217173500224_1_alg».proof.Proof.FrameKI
import Idealize.ShloMosaic.Lib.Pipeline.Value
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

variable (c : Dev nD) (i : grid0.Coords) (arg3 : Memref sig .tc .vmem S1x1x2048x64 .f32) (harg3 : arg3.IsWhole) (arg4 : Memref sig .tc .vmem S1x1x512x64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64x64 .f32) (harg9 : arg9.IsWhole) (arg10 : Memref sig .tc .vmem S64 .f32) (harg10 : arg10.IsWhole) (arg11 : Memref sig .tc .vmem S1x1x512x64 .f32) (harg11 : arg11.IsWhole) (arg12 : Memref sig .tc .vmem S2048x64 .bf16) (harg12 : arg12.IsWhole) (arg13 : Memref sig .tc .vmem S2048x64 .bf16) (harg13 : arg13.IsWhole)
  (x0 : Vec F S1x1x2048x64 .f32) (x1 : Vec F S1x1x512x64 .f32) (x2 : Vec F S64x64 .f32) (x3 : Vec F S64 .f32) (x4 : Vec F S64x64 .f32) (x5 : Vec F S64 .f32) (x6 : Vec F S64x64 .f32) (x7 : Vec F S64 .f32)

theorem sKA_eq (hc0 : condQ0 i) : sKA c i arg3 harg3 arg4 harg4 arg5 harg5 arg6 harg6 arg7 harg7 arg8 harg8 arg9 harg9 arg10 harg10 arg11 harg11 arg12 harg12 arg13 harg13 x0 x1 x2 x3 x4 x5 x6 x7 hc0 = k0_pay3 x0 x4 x5 := by
  unfold sKA
  rw [View.read_writes_eq_canon _ _ _ (coverKA c i arg3 harg3 arg4 harg4 arg5 harg5 arg6 harg6 arg7 harg7 arg8 harg8 arg9 harg9 arg10 harg10 arg11 harg11 arg12 harg12 arg13 harg13 x0 x1 x2 x3 x4 x5 x6 x7 hc0)]
  unfold kernelRunA
  dsimp only
  sl_unfold_words
  rw [View.canon_unit_zero hz2]
  simp only [View.readAt_eq_ld, harg3.read_unread, harg7.read_unread, harg8.read_unread, View.ld_unit_zero (S := S1x1x2048x64) hz4, View.ld_unit_zero (S := S64x64) hz2, View.ld_unit_zero (S := S64) hz1]

theorem sVA_eq (hc0 : condQ0 i) : sVA c i arg3 harg3 arg4 harg4 arg5 harg5 arg6 harg6 arg7 harg7 arg8 harg8 arg9 harg9 arg10 harg10 arg11 harg11 arg12 harg12 arg13 harg13 x0 x1 x2 x3 x4 x5 x6 x7 hc0 = k0_pay4 x0 x6 x7 := by
  unfold sVA
  rw [View.read_writes_eq_canon _ _ _ (coverVA c i arg3 harg3 arg4 harg4 arg5 harg5 arg6 harg6 arg7 harg7 arg8 harg8 arg9 harg9 arg10 harg10 arg11 harg11 arg12 harg12 arg13 harg13 x0 x1 x2 x3 x4 x5 x6 x7 hc0)]
  unfold kernelRunA
  dsimp only
  sl_unfold_words
  rw [View.canon_unit_zero hz2]
  simp only [View.readAt_eq_ld, harg3.read_unread, harg9.read_unread, harg10.read_unread, View.ld_unit_zero (S := S1x1x2048x64) hz4, View.ld_unit_zero (S := S64x64) hz2, View.ld_unit_zero (S := S64) hz1]

theorem out8A_eq (hc0 : condQ0 i) : out8A c i arg3 harg3 arg4 harg4 arg5 harg5 arg6 harg6 arg7 harg7 arg8 harg8 arg9 harg9 arg10 harg10 arg11 harg11 arg12 harg12 arg13 harg13 x0 x1 x2 x3 x4 x5 x6 x7 hc0 = k0_pay1 (k0_pay5 x1 x2 x3 (k0_pay3 x0 x4 x5) (k0_pay4 x0 x6 x7)) := by
  unfold out8A
  rw [View.read_writes_eq_canon _ _ _ (cover8A c i arg3 harg3 arg4 harg4 arg5 harg5 arg6 harg6 arg7 harg7 arg8 harg8 arg9 harg9 arg10 harg10 arg11 harg11 arg12 harg12 arg13 harg13 x0 x1 x2 x3 x4 x5 x6 x7 hc0)]
  unfold kernelRunA
  dsimp only
  sl_unfold_words
  rw [View.canon_unit_zero hz4]
  simp only [View.readAt_eq_ld, harg3.read_unread, harg4.read_unread, harg5.read_unread, harg6.read_unread, harg7.read_unread, harg8.read_unread, harg9.read_unread, harg10.read_unread, View.ld_unit_zero (S := S1x1x2048x64) hz4, View.ld_unit_zero (S := S1x1x512x64) hz4, View.ld_unit_zero (S := S64x64) hz2, View.ld_unit_zero (S := S64) hz1]
  rw [View.readCov_unit_zero (S := S2048x64) arg12.view hz2, View.readCov_unit_zero (S := S2048x64) arg13.view hz2]

theorem out8B_eq (hc0 : ¬condQ0 i) (xs0 xs1 : Vec F S2048x64 .bf16) : out8B c i arg3 harg3 arg4 harg4 arg5 harg5 arg6 harg6 arg7 harg7 arg8 harg8 arg9 harg9 arg10 harg10 arg11 harg11 arg12 harg12 arg13 harg13 x0 x1 x2 x3 x4 x5 x6 x7 hc0 xs0 xs1 = k0_pay1 (k0_pay5 x1 x2 x3 xs0 xs1) := by
  unfold out8B
  rw [View.read_writes_eq_canon _ _ _ (cover8B c i arg3 harg3 arg4 harg4 arg5 harg5 arg6 harg6 arg7 harg7 arg8 harg8 arg9 harg9 arg10 harg10 arg11 harg11 arg12 harg12 arg13 harg13 x0 x1 x2 x3 x4 x5 x6 x7 hc0 xs0 xs1)]
  unfold kernelRunB
  dsimp only
  sl_unfold_words
  rw [View.canon_unit_zero hz4]
  simp only [View.readAt_eq_ld, harg4.read_unread, harg5.read_unread, harg6.read_unread, harg12.read_unread, harg13.read_unread, View.ld_unit_zero (S := S1x1x512x64) hz4, View.ld_unit_zero (S := S64x64) hz2, View.ld_unit_zero (S := S64) hz1, View.ld_unit_zero (S := S2048x64) hz2]

end Cert.KernelIdeal.Hand

end
-- ==== Proof.BlocksKI.lean ====
/-
  Where each window's block sits in its array. Point t of the row-major grid is batch t / 64, head (t / 4) mod 16, query
  tile t mod 4. The slab window reads rows 0..2047 of that head of x, the tile window rows 512·(t mod 4) + 0..511 of it,
  the weight and bias windows their whole arrays, and the output window writes the tile's rows of that head.
-/
import proofs.«174484_j86217173500224_1_alg».proof.Proof.Gen.KernelIdeal.Launch
import proofs.«174484_j86217173500224_1_alg».proof.Proof.Gen.KernelIdeal.Skeleton
import proofs.«174484_j86217173500224_1_alg».proof.Proof.Gen.KernelIdeal.Points
import proofs.«174484_j86217173500224_1_alg».proof.Proof.FrameKI
import Idealize.ShloMosaic.Lib.ValueIdx
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The printed index maps in closed form, decided over the grid. -/
theorem idx_facts : ∀ t : Fin cfg0.N,
    (win0_0.index t (0 : Fin 4) = t.val / 64 ∧ win0_0.index t (1 : Fin 4) = t.val / 4 % 16 ∧ win0_0.index t (2 : Fin 4) = 0 ∧ win0_0.index t (3 : Fin 4) = 0)
    ∧ (win0_1.index t (0 : Fin 4) = t.val / 64 ∧ win0_1.index t (1 : Fin 4) = t.val / 4 % 16 ∧ win0_1.index t (2 : Fin 4) = t.val % 4 ∧ win0_1.index t (3 : Fin 4) = 0)
    ∧ (win0_8.index t (0 : Fin 4) = t.val / 64 ∧ win0_8.index t (1 : Fin 4) = t.val / 4 % 16 ∧ win0_8.index t (2 : Fin 4) = t.val % 4 ∧ win0_8.index t (3 : Fin 4) = 0)
    ∧ (win0_2.index t (0 : Fin 2) = 0 ∧ win0_2.index t (1 : Fin 2) = 0 ∧ win0_4.index t (0 : Fin 2) = 0 ∧ win0_4.index t (1 : Fin 2) = 0 ∧ win0_6.index t (0 : Fin 2) = 0 ∧ win0_6.index t (1 : Fin 2) = 0)
    ∧ (win0_3.index t (0 : Fin 1) = 0 ∧ win0_5.index t (0 : Fin 1) = 0 ∧ win0_7.index t (0 : Fin 1) = 0) :=
  (by decide +kernel : ∀ t : Fin grid0.N, _)

theorem t_lt (t : Fin cfg0.N) : t.val < 128 := lt_of_lt_of_eq t.isLt N_0

/-- The batch, head and first row of the point. -/
def bOf (t : Fin cfg0.N) : Fin 2 := ⟨t.val / 64, by have := t_lt t; omega⟩
def hOf (t : Fin cfg0.N) : Fin 16 := ⟨t.val / 4 % 16, by omega⟩
def rowOf (t : Fin cfg0.N) (r : Fin 512) : Fin 2048 := ⟨t.val % 4 * 512 + r.val, by have := r.isLt; omega⟩

theorem iblk0_apply (c : Dev nD) (t : Fin cfg0.N) (j : S1x1x2048x64.Idx) :
    iblk m c 0 t j = Vm m c main_arg0 (ix4 (bOf t) (hOf t) (j 2) (j 3)) := by
  obtain ⟨⟨e0, e1, e2, e3⟩, -⟩ := idx_facts t
  show Vm m c main_arg0 (((cfg0.win 0).blk t).view.emb j) = _
  refine congrArg (Vm m c main_arg0) ?_
  funext a; apply Fin.ext
  match a with
  | ⟨0, _⟩ => show win0_0.index t (0 : Fin 4) * 1 + 1 * (j 0).val = t.val / 64; have hj : (j 0).val < 1 := (j 0).isLt; omega
  | ⟨1, _⟩ => show win0_0.index t (1 : Fin 4) * 1 + 1 * (j 1).val = t.val / 4 % 16; have hj : (j 1).val < 1 := (j 1).isLt; omega
  | ⟨2, _⟩ => show win0_0.index t (2 : Fin 4) * 2048 + 1 * (j 2).val = (j 2).val; omega
  | ⟨3, _⟩ => show win0_0.index t (3 : Fin 4) * 64 + 1 * (j 3).val = (j 3).val; omega

theorem iblk1_apply (c : Dev nD) (t : Fin cfg0.N) (j : S1x1x512x64.Idx) :
    iblk m c 1 t j = Vm m c main_arg0 (ix4 (bOf t) (hOf t) (rowOf t (j 2)) (j 3)) := by
  obtain ⟨-, ⟨e0, e1, e2, e3⟩, -⟩ := idx_facts t
  show Vm m c main_arg0 (((cfg0.win 1).blk t).view.emb j) = _
  refine congrArg (Vm m c main_arg0) ?_
  funext a; apply Fin.ext
  match a with
  | ⟨0, _⟩ => show win0_1.index t (0 : Fin 4) * 1 + 1 * (j 0).val = t.val / 64; have hj : (j 0).val < 1 := (j 0).isLt; omega
  | ⟨1, _⟩ => show win0_1.index t (1 : Fin 4) * 1 + 1 * (j 1).val = t.val / 4 % 16; have hj : (j 1).val < 1 := (j 1).isLt; omega
  | ⟨2, _⟩ => show win0_1.index t (2 : Fin 4) * 512 + 1 * (j 2).val = t.val % 4 * 512 + (j 2).val; omega
  | ⟨3, _⟩ => show win0_1.index t (3 : Fin 4) * 64 + 1 * (j 3).val = (j 3).val; omega

/-- The output window's block at point t, embedded in the result array. -/
theorem emb8 (t : Fin cfg0.N) (j : S1x1x512x64.Idx) :
    ((cfg0.win 8).blk t).view.emb j = ix4 (bOf t) (hOf t) (rowOf t (j 2)) (j 3) := by
  obtain ⟨-, -, ⟨e0, e1, e2, e3⟩, -⟩ := idx_facts t
  funext a; apply Fin.ext
  match a with
  | ⟨0, _⟩ => show win0_8.index t (0 : Fin 4) * 1 + 1 * (j 0).val = t.val / 64; have hj : (j 0).val < 1 := (j 0).isLt; omega
  | ⟨1, _⟩ => show win0_8.index t (1 : Fin 4) * 1 + 1 * (j 1).val = t.val / 4 % 16; have hj : (j 1).val < 1 := (j 1).isLt; omega
  | ⟨2, _⟩ => show win0_8.index t (2 : Fin 4) * 512 + 1 * (j 2).val = t.val % 4 * 512 + (j 2).val; omega
  | ⟨3, _⟩ => show win0_8.index t (3 : Fin 4) * 64 + 1 * (j 3).val = (j 3).val; omega

theorem iblk2_apply (c : Dev nD) (t : Fin cfg0.N) (j : S64x64.Idx) : iblk m c 2 t j = Vm m c main_arg1 j := by
  obtain ⟨-, -, -, ⟨e20, e21, e40, e41, e60, e61⟩, -⟩ := idx_facts t
  show Vm m c main_arg1 (((cfg0.win 2).blk t).view.emb j) = _
  refine congrArg (Vm m c main_arg1) ?_
  funext a; apply Fin.ext
  match a with
  | ⟨0, _⟩ => show win0_2.index t (0 : Fin 2) * 64 + 1 * (j 0).val = (j 0).val; omega
  | ⟨1, _⟩ => show win0_2.index t (1 : Fin 2) * 64 + 1 * (j 1).val = (j 1).val; omega

theorem iblk4_apply (c : Dev nD) (t : Fin cfg0.N) (j : S64x64.Idx) : iblk m c 4 t j = Vm m c main_arg3 j := by
  obtain ⟨-, -, -, ⟨e20, e21, e40, e41, e60, e61⟩, -⟩ := idx_facts t
  show Vm m c main_arg3 (((cfg0.win 4).blk t).view.emb j) = _
  refine congrArg (Vm m c main_arg3) ?_
  funext a; apply Fin.ext
  match a with
  | ⟨0, _⟩ => show win0_4.index t (0 : Fin 2) * 64 + 1 * (j 0).val = (j 0).val; omega
  | ⟨1, _⟩ => show win0_4.index t (1 : Fin 2) * 64 + 1 * (j 1).val = (j 1).val; omega

theorem iblk6_apply (c : Dev nD) (t : Fin cfg0.N) (j : S64x64.Idx) : iblk m c 6 t j = Vm m c main_arg5 j := by
  obtain ⟨-, -, -, ⟨e20, e21, e40, e41, e60, e61⟩, -⟩ := idx_facts t
  show Vm m c main_arg5 (((cfg0.win 6).blk t).view.emb j) = _
  refine congrArg (Vm m c main_arg5) ?_
  funext a; apply Fin.ext
  match a with
  | ⟨0, _⟩ => show win0_6.index t (0 : Fin 2) * 64 + 1 * (j 0).val = (j 0).val; omega
  | ⟨1, _⟩ => show win0_6.index t (1 : Fin 2) * 64 + 1 * (j 1).val = (j 1).val; omega

theorem iblk3_apply (c : Dev nD) (t : Fin cfg0.N) (j : S64.Idx) : iblk m c 3 t j = Vm m c main_arg2 j := by
  obtain ⟨-, -, -, -, ⟨e3, e5, e7⟩⟩ := idx_facts t
  show Vm m c main_arg2 (((cfg0.win 3).blk t).view.emb j) = _
  refine congrArg (Vm m c main_arg2) ?_
  funext a; apply Fin.ext
  match a with
  | ⟨0, _⟩ => show win0_3.index t (0 : Fin 1) * 64 + 1 * (j 0).val = (j 0).val; omega

theorem iblk5_apply (c : Dev nD) (t : Fin cfg0.N) (j : S64.Idx) : iblk m c 5 t j = Vm m c main_arg4 j := by
  obtain ⟨-, -, -, -, ⟨e3, e5, e7⟩⟩ := idx_facts t
  show Vm m c main_arg4 (((cfg0.win 5).blk t).view.emb j) = _
  refine congrArg (Vm m c main_arg4) ?_
  funext a; apply Fin.ext
  match a with
  | ⟨0, _⟩ => show win0_5.index t (0 : Fin 1) * 64 + 1 * (j 0).val = (j 0).val; omega

theorem iblk7_apply (c : Dev nD) (t : Fin cfg0.N) (j : S64.Idx) : iblk m c 7 t j = Vm m c main_arg6 j := by
  obtain ⟨-, -, -, -, ⟨e3, e5, e7⟩⟩ := idx_facts t
  show Vm m c main_arg6 (((cfg0.win 7).blk t).view.emb j) = _
  refine congrArg (Vm m c main_arg6) ?_
  funext a; apply Fin.ext
  match a with
  | ⟨0, _⟩ => show win0_7.index t (0 : Fin 1) * 64 + 1 * (j 0).val = (j 0).val; omega

end Cert.KernelIdeal.Hand

end
-- ==== Proof.ObligKI.lean ====
/-
  The body obligation: from the invariant before a point and every window's staging buffer at what it holds there, the
  body runs and returns the invariant after the point and every buffer at what the proof data says. A first tile may
  start from carried buffers at anything (it overwrites both); a later tile needs them at what the point before left.
-/
import proofs.«174484_j86217173500224_1_alg».proof.Proof.Gen.KernelIdeal.Launch
import proofs.«174484_j86217173500224_1_alg».proof.Proof.Gen.KernelIdeal.Skeleton
import proofs.«174484_j86217173500224_1_alg».proof.Proof.Gen.KernelIdeal.Points
import proofs.«174484_j86217173500224_1_alg».proof.Proof.FrameKI
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (qW : Fin 9 → PosShare TreeShare)
variable (m : (ℓ : Loc nD τ sig) → Buf (Elt F) ℓ)

/-- No window is ever idle: every point stores the output block and reads every input block. -/
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl

/-- What the body is called with at point t, -/
def bodyPre (c : Dev nD) (t : Fin cfg0.N) : sProp 𝕄 :=
  iprop((dats qW m 0 c).Φ t.castSucc ∗ (dats qW m 0 c).owesAt () t.castSucc
    ∗ (∃ d, owns (c : Thread nD τ) (ms0 t) fullShare ((dats qW m 0 c).before 0 t d))
    ∗ (∃ d, owns (c : Thread nD τ) (ms1 t) fullShare ((dats qW m 0 c).before 1 t d))
    ∗ (∃ d, owns (c : Thread nD τ) (ms2 t) fullShare ((dats qW m 0 c).before 2 t d))
    ∗ (∃ d, owns (c : Thread nD τ) (ms3 t) fullShare ((dats qW m 0 c).before 3 t d))
    ∗ (∃ d, owns (c : Thread nD τ) (ms4 t) fullShare ((dats qW m 0 c).before 4 t d))
    ∗ (∃ d, owns (c : Thread nD τ) (ms5 t) fullShare ((dats qW m 0 c).before 5 t d))
    ∗ (∃ d, owns (c : Thread nD τ) (ms6 t) fullShare ((dats qW m 0 c).before 6 t d))
    ∗ (∃ d, owns (c : Thread nD τ) (ms7 t) fullShare ((dats qW m 0 c).before 7 t d))
    ∗ (∃ d, owns (c : Thread nD τ) (ms8 t) fullShare ((dats qW m 0 c).before 8 t d)))

/-- and what it returns. -/
def bodyPost (c : Dev nD) (t : Fin cfg0.N) : sProp 𝕄 :=
  iprop((dats qW m 0 c).Φ t.succ ∗ (dats qW m 0 c).owesAt () t.succ
    ∗ (dats qW m 0 c).leavesExact 0 t
    ∗ (dats qW m 0 c).leavesExact 1 t
    ∗ (dats qW m 0 c).leavesExact 2 t
    ∗ (dats qW m 0 c).leavesExact 3 t
    ∗ (dats qW m 0 c).leavesExact 4 t
    ∗ (dats qW m 0 c).leavesExact 5 t
    ∗ (dats qW m 0 c).leavesExact 6 t
    ∗ (dats qW m 0 c).leavesExact 7 t
    ∗ (dats qW m 0 c).leavesExact 8 t)

set_option maxHeartbeats 8000000 in
theorem sound_body (c : Dev nD) (t : Fin cfg0.N) :
    bodyPre qW m c t ⊢ wp frame (wpE (defs₀ (F := F)) Variants.none c none) Set.univ (bodyAt0 t) (fun _ => bodyPost qW m c t) := by
  unfold bodyPre bodyPost bodyAt0
  simp only [before_0, before_1, before_2, before_3, before_4, before_5, before_6, before_7]
  rw [show (dats qW m 0 c).owesAt () t.succ = (dats qW m 0 c).owesAt () t.castSucc from rfl]
  rw [show (dats qW m 0 c).Φ t.succ = PhiS m c (t.val + 1) t.isLt from rfl, PhiS_succ]
  rw [show (dats qW m 0 c).leavesExact 0 t = owns (c : Thread nD τ) (ms0 t) fullShare ((dats qW m 0 c).after 0 t) from by
    unfold Dat.leavesExact; rw [live_0 t], after_0]
  rw [show (dats qW m 0 c).leavesExact 1 t = owns (c : Thread nD τ) (ms1 t) fullShare ((dats qW m 0 c).after 1 t) from by
    unfold Dat.leavesExact; rw [live_1 t], after_1]
  rw [show (dats qW m 0 c).leavesExact 2 t = owns (c : Thread nD τ) (ms2 t) fullShare ((dats qW m 0 c).after 2 t) from by
    unfold Dat.leavesExact; rw [live_2 t], after_2]
  rw [show (dats qW m 0 c).leavesExact 3 t = owns (c : Thread nD τ) (ms3 t) fullShare ((dats qW m 0 c).after 3 t) from by
    unfold Dat.leavesExact; rw [live_3 t], after_3]
  rw [show (dats qW m 0 c).leavesExact 4 t = owns (c : Thread nD τ) (ms4 t) fullShare ((dats qW m 0 c).after 4 t) from by
    unfold Dat.leavesExact; rw [live_4 t], after_4]
  rw [show (dats qW m 0 c).leavesExact 5 t = owns (c : Thread nD τ) (ms5 t) fullShare ((dats qW m 0 c).after 5 t) from by
    unfold Dat.leavesExact; rw [live_5 t], after_5]
  rw [show (dats qW m 0 c).leavesExact 6 t = owns (c : Thread nD τ) (ms6 t) fullShare ((dats qW m 0 c).after 6 t) from by
    unfold Dat.leavesExact; rw [live_6 t], after_6]
  rw [show (dats qW m 0 c).leavesExact 7 t = owns (c : Thread nD τ) (ms7 t) fullShare ((dats qW m 0 c).after 7 t) from by
    unfold Dat.leavesExact; rw [live_7 t], after_7]
  rw [show (dats qW m 0 c).leavesExact 8 t = owns (c : Thread nD τ) (ms8 t) fullShare ((dats qW m 0 c).after 8 t) from by
    unfold Dat.leavesExact; rw [live_8 t], after_8]
  by_cases h0 : t.val % 4 = 0
  · rw [outsAt_A m c t h0]
    unfold out8A sKA sVA; (try dsimp only)
    by_cases hz : t.val = 0
    · rw [PhiS_castSucc qW m c t, PhiS_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) ((hcondQ0 t).mpr h0) (iblk m c 0 t) (iblk m c 1 t) (iblk m c 2 t) (iblk m c 3 t) (iblk m c 4 t) (iblk m c 5 t) (iblk m c 6 t) (iblk m c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      iintro ⟨H0, H1, H2, H3, H4, H5, H6, H7, ⟨%e8, H8⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverKA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((hcondQ0 t).mpr h0))
          · unfold owns; iexists _; isplitr
            swap; · iexact HS1
            ipureintro; exact View.read_writes_of_cover _ _ _ _ _ (coverVA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((hcondQ0 t).mpr h0))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover8A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((hcondQ0 t).mpr h0))
    · rw [PhiS_castSucc qW m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) ((hcondQ0 t).mpr h0) (iblk m c 0 t) (iblk m c 1 t) (iblk m c 2 t) (iblk m c 3 t) (iblk m c 4 t) (iblk m c 5 t) (iblk m c 6 t) (iblk m c 7 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexists _; iexact HS0
      isplitl [HS1]; · iexists _; iexact HS1
      iintro ⟨H0, H1, H2, H3, H4, H5, H6, H7, ⟨%e8, H8⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverKA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((hcondQ0 t).mpr h0))
          · unfold owns; iexists _; isplitr
            swap; · iexact HS1
            ipureintro; exact View.read_writes_of_cover _ _ _ _ _ (coverVA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((hcondQ0 t).mpr h0))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover8A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) ((hcondQ0 t).mpr h0))
  · rw [outsAt_B m c t h0]
    unfold out8B; (try dsimp only)
    have hz : t.val ≠ 0 := fun h => h0 (by rw [h])
    rw [PhiS_castSucc qW m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (fun h => h0 ((hcondQ0 t).mp h)) (iblk m c 0 t) (iblk m c 1 t) (iblk m c 2 t) (iblk m c 3 t) (iblk m c 4 t) (iblk m c 5 t) (iblk m c 6 t) (iblk m c 7 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, ⟨%e8, H8⟩, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (cover8B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) (iblk m c 0 t) (iblk m c 1 t) (iblk m c 2 t) (iblk m c 3 t) (iblk m c 4 t) (iblk m c 5 t) (iblk m c 6 t) (iblk m c 7 t) (fun h => h0 ((hcondQ0 t).mp h)) _ _)

/-- The library's body obligation, at every point. -/
theorem body_obligation (c : Dev nD) : BodyObligation (dats (F := F) qW m 0 c) (defs₀ (F := F)) Variants.none () Set.univ := fun t => by
  rw [bigSep_W0, bigSep_W0]
  exact sound_body qW m c t

/-- What the launch hands the region is the invariant before the first point. -/
theorem hin (c : Dev nD) : Pipeline.ΦA spec0 c ⊢ (dats qW m 0 c).Φ 0 := by
  rw [show (dats qW m 0 c).Φ 0 = PhiS m c 0 (Nat.zero_le _) from rfl, PhiS_zero m c 0 _ rfl]
  try exact Idealize.SL.BI.Entails.refl _

/-- After the last point the invariant gives it back: the carried buffers' named contents are forgotten. -/
theorem hout (c : Dev nD) : (dats qW m 0 c).Φ (Fin.last cfg0.N) ⊢ Pipeline.ΦA spec0 c := by
  have ht : (Fin.last cfg0.N).val ≠ 0 := by rw [Fin.val_last]; have : cfg0.N = 128 := N_0; omega
  rw [show (dats qW m 0 c).Φ (Fin.last cfg0.N) = PhiS m c (Fin.last cfg0.N).val (Nat.le_of_lt_succ (Fin.last cfg0.N).isLt) from rfl, PhiS_pos m c _ _ ht, PhiA_eq]
  iintro ⟨⟨HS0, HS1⟩, Hg⟩
  isplitl [HS0 HS1]
  · isplitl [HS0]
    · iexists _; iexact HS0
    iexists _; iexact HS1
  iexact Hg

end Cert.KernelIdeal.Hand

end
-- ==== Proof.LaunchKI.lean ====
/-
  The launch of the region when two input windows read ONE array.

  The pallas_call has nine windows; windows 0 and 1 both read the first argument (once as the whole slab of a head,
  once as the query tile), so the windows' arrays are eight distinct buffers, not nine. A points-to of a buffer can
  be held at a fraction of the full share, and two fractions that compose to the full share are together the whole
  buffer (`pointsTo_share`). So the proof data lend window 0 the left half and window 1 the right half of the first
  argument's buffer (`qOf`), every other window its own buffer whole; at the region's entry the eight buffers, each
  whole at the launch contents, are exactly the nine windows' arrays at those shares (`hsplit`). Both halves only
  permit reading, which is all an input window does.

  `run_of_body` is then the region's run for ANY such proof data: the launch memory is the entry contents (@main is
  the region alone), nothing is owed, the invariant is entered from and returned to the class invariant (the
  kernel's two scratch buffers at some contents, the generator register at some state), and every unscoped buffer
  of the core is a window's array, so no buffer bypasses the region. The conclusion reads each window's array in the
  final state: what the write-backs of all the grid points leave there.
-/
import proofs.«174484_j86217173500224_1_alg».proof.Proof.Gen.KernelIdeal.Launch
import proofs.«174484_j86217173500224_1_alg».proof.Proof.Gen.KernelIdeal.Points
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-- The TensorCore buffers' contents when the region is entered: the launch memory itself (no host operation
    precedes the region). -/
abbrev V (m : (ℓ : Loc nD τ sig) → Buf (Elt F) ℓ) (c : Dev nD) (b : Ref sig .tc) : Buf (Elt F) ((c : Thread nD τ).loc b) :=
  m ((c : Thread nD τ).loc b)

/-- The share each input window holds of its array: windows 0 and 1 read the same array and hold its two halves,
    which join to the full share; every other window's array is its own, held whole. -/
def qOf : Fin 9 → PosShare TreeShare := fun w =>
  if w = 0 then (fullShare : PosShare TreeShare).left else if w = 1 then (fullShare : PosShare TreeShare).right else fullShare

/-- At the region's entry: the eight distinct buffers behind the windows' arrays, each whole at the full share at the
    launch contents, are the nine windows' arrays at the proof data's shares — the first argument's buffer split into
    its two halves for windows 0 and 1, every other buffer handed to its one window whole. -/
theorem hsplit (m : (ℓ : Loc nD τ sig) → Buf (Elt F) ℓ) (c : Dev nD) (dat : Dat τ (Elt F) Unit ℕ (UR sig nD τ) ℕ cfg0 c)
    (hA : ∀ w, dat.A w = V m c (Pipeline.arrRef spec0 w)) (hq : ∀ w, dat.q w = qOf w) :
    (Pipeline.arrBufs spec0 c (V m c) : sProp 𝕄) ⊢ dat.arrays (dat.arrAt · 0) := by
  unfold Pipeline.arrBufs Dat.arrays
  rw [bigSep_eq_bigSepL_of_eq [main_arg0, main_arg1, main_arg2, main_arg3, main_arg4, main_arg5, main_arg6, main_v0] (by decide) (by decide), bigSep_W0]
  -- each window's conjunct: its array is a whole buffer, and at point 0 it holds the entry contents
  have e : ∀ w : Fin 9, (((cfg0.win w).arr.view.loc (c.tc : Thread nD τ)) ↦[(cfg0.win w).arr.view.set]{dat.share w} (fun x => dat.arrAt x 0) w : sProp 𝕄)
      = (((c.tc : Thread nD τ).loc (Pipeline.arrRef spec0 w)) ↦{dat.share w} V m c (Pipeline.arrRef spec0 w)) := fun w => by
    rw [(arr_whole0 w).set_eq_univ, ← hA w]; rfl
  rw [e 0, e 1, e 2, e 3, e 4, e 5, e 6, e 7, e 8]
  -- the shares: the two readers of the first array hold its halves, every other window the whole
  have hs0 : dat.share 0 = (fullShare : PosShare TreeShare).left := by unfold Dat.share; rw [if_neg (by decide), hq]; rfl
  have hs1 : dat.share 1 = (fullShare : PosShare TreeShare).right := by unfold Dat.share; rw [if_neg (by decide), hq]; rfl
  have hs2 : dat.share 2 = fullShare := by unfold Dat.share; rw [if_neg (by decide), hq]; rfl
  have hs3 : dat.share 3 = fullShare := by unfold Dat.share; rw [if_neg (by decide), hq]; rfl
  have hs4 : dat.share 4 = fullShare := by unfold Dat.share; rw [if_neg (by decide), hq]; rfl
  have hs5 : dat.share 5 = fullShare := by unfold Dat.share; rw [if_neg (by decide), hq]; rfl
  have hs6 : dat.share 6 = fullShare := by unfold Dat.share; rw [if_neg (by decide), hq]; rfl
  have hs7 : dat.share 7 = fullShare := by unfold Dat.share; rw [if_neg (by decide), hq]; rfl
  have hs8 : dat.share 8 = fullShare := by unfold Dat.share; rw [if_pos (by decide)]
  rw [hs0, hs1, hs2, hs3, hs4, hs5, hs6, hs7, hs8]
  show iprop((((c.tc : Thread nD τ).loc main_arg0) ↦{fullShare} V m c main_arg0) ∗ (((c.tc : Thread nD τ).loc main_arg1) ↦{fullShare} V m c main_arg1)
        ∗ (((c.tc : Thread nD τ).loc main_arg2) ↦{fullShare} V m c main_arg2) ∗ (((c.tc : Thread nD τ).loc main_arg3) ↦{fullShare} V m c main_arg3)
        ∗ (((c.tc : Thread nD τ).loc main_arg4) ↦{fullShare} V m c main_arg4) ∗ (((c.tc : Thread nD τ).loc main_arg5) ↦{fullShare} V m c main_arg5)
        ∗ (((c.tc : Thread nD τ).loc main_arg6) ↦{fullShare} V m c main_arg6) ∗ (((c.tc : Thread nD τ).loc main_v0) ↦{fullShare} V m c main_v0))
    ⊢ (iprop((((c.tc : Thread nD τ).loc main_arg0) ↦{(fullShare : PosShare TreeShare).left} V m c main_arg0)
        ∗ (((c.tc : Thread nD τ).loc main_arg0) ↦{(fullShare : PosShare TreeShare).right} V m c main_arg0)
        ∗ (((c.tc : Thread nD τ).loc main_arg1) ↦{fullShare} V m c main_arg1)
        ∗ (((c.tc : Thread nD τ).loc main_arg2) ↦{fullShare} V m c main_arg2) ∗ (((c.tc : Thread nD τ).loc main_arg3) ↦{fullShare} V m c main_arg3)
        ∗ (((c.tc : Thread nD τ).loc main_arg4) ↦{fullShare} V m c main_arg4) ∗ (((c.tc : Thread nD τ).loc main_arg5) ↦{fullShare} V m c main_arg5)
        ∗ (((c.tc : Thread nD τ).loc main_arg6) ↦{fullShare} V m c main_arg6) ∗ (((c.tc : Thread nD τ).loc main_v0) ↦{fullShare} V m c main_v0)) : sProp 𝕄)
  iintro ⟨H0, H1, H2, H3, H4, H5, H6, H7⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  isplitl [H3]; · iexact H3
  isplitl [H4]; · iexact H4
  isplitl [H5]; · iexact H5
  isplitl [H6]; · iexact H6
  iexact H7

/-- THE RUN of the region from any proof data that lends the shares `qOf`, enters at the launch memory, owes nothing,
    meets the (loose) body obligation, and whose invariant is entered from and returned to the class invariant
    (the kernel's scratch at some contents, the generator register at some state): every weakly fair execution of
    @main terminates, and in every final state each window's array holds what the write-backs of all the points leave. -/
theorem run_of_body (m : (ℓ : Loc nD τ sig) → Buf (Elt F) ℓ) (ρ : Dev nD → PrngReg)
    (dats : (p : Fin 1) → (c : Dev nD) → Dat τ (Elt F) Unit ℕ (UR sig nD τ) ℕ (cfgs p) c)
    (hA : ∀ c w, (dats 0 c).A w = V m c (Pipeline.arrRef spec0 w)) (hq : ∀ c w, (dats 0 c).q w = qOf w)
    (howed : ∀ c t, (dats 0 c).owed t = 0)
    (hbody : ∀ c, Pipeline.BodyObligationLoose (dats 0 c) (defs₀ (F := F)) Variants.none () Set.univ)
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) ⟨m, fun _ => 0, ρ⟩
      (fun r => ∀ c : Dev nD, ∀ w : Fin 9, r.2.mem ((spec0 w).arr.view.loc (c.tc : Thread nD τ)) = (dats 0 c).arrAt w cfg0.N) := by
  classical
  exact Pipeline.θ_run_region_pf (fun q => (cfgs q).toPCfg (Val := Elt F)) (fun q => (cfgs q).toPCfg_adm) dats () cellOf_inj 0
    winFacts₀0 (Pipeline.OwnSemFacts.none spec0) (Pipeline.PreFacts.none _) emb₁ defs₀ Variants.none m ρ main
    hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := Pipeline.hmain_region cfgs 0 defs₀ Variants.none m main (fun _ => rfl))
    (hsplit := fun c => hsplit m c (dats 0 c) (hA c) (hq c))
    (hpf := fun _ k => k.elim0)
    (X := fun c => iprop(∃ r, prngReg c r)) (Y := fun c => iprop(∃ r, prngReg c r))
    (Z := fun _ => iprop(emp))
    (hX := fun c => by
      iintro ⟨-, -, -, -, Hp, -⟩; imodintro
      isplitl [Hp]; · iexists _; iexact Hp
      iempintro)
    (hin := fun c => (show _ ⊢ Pipeline.ΦA spec0 c from by
        unfold Pipeline.ΦA; iintro ⟨Hp, -, Hr⟩
        isplitl [Hr] <;> iassumption).trans (hin c))
    (hout := fun c => (hout c).trans (by
        rw [Pipeline.ownSems0_none]; unfold Pipeline.ΦA
        iintro ⟨Hr, Hp⟩
        isplitl [Hp]; · iexact Hp
        isplitr; · iempintro
        iexact Hr))
    (QY := fun _ _ => True)
    (hY := fun c s' => by
      iintro ⟨-, -, HSI⟩
      imodintro
      isplitr; · ipureintro; trivial
      iexact HSI)
    (hQ := fun s h c w => (h c).1 w)

end Cert.KernelIdeal.Hand

end
-- ==== Proof.RunKI.lean ====
/-
  The region's run and the frame: the body obligation at every point, the carried invariant at both ends and the split
  of the shared array's buffer between its two windows give the run; every input window's array ends as it began.
-/
import proofs.«174484_j86217173500224_1_alg».proof.Proof.Gen.KernelIdeal.Launch
import proofs.«174484_j86217173500224_1_alg».proof.Proof.Gen.KernelIdeal.Skeleton
import proofs.«174484_j86217173500224_1_alg».proof.Proof.Gen.KernelIdeal.Points
import proofs.«174484_j86217173500224_1_alg».proof.Proof.ObligKI
import proofs.«174484_j86217173500224_1_alg».proof.Proof.LaunchKI
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every weakly fair execution terminates, faults nowhere, and leaves every window's array at what the proof data
    computes from the write-backs. -/
theorem run_main : θ_run defs (onTc (τ := τ) (main (F := F))) ⟨m, fun _ => 0, ρ⟩
    (fun r => ∀ c : Dev nD, ∀ w : Fin 9, r.2.mem ((spec0 w).arr.view.loc (c.tc : Thread nD τ)) = (dats qOf m 0 c).arrAt w cfg0.N) :=
  run_of_body m ρ (dats qOf m) (A_eq qOf m) (q_eq qOf m) (fun _ _ => rfl) (fun c => (body_obligation qOf m c).loose) (hin qOf m) (hout qOf m)

/-- An input window's array is never written. -/
theorem kept (c : Dev nD) (w : Fin 9) (hw : (cfg0.win w).isOut = false) : (dats qOf m 0 c).arrAt w cfg0.N = Vm m c (Pipeline.arrRef spec0 w) :=
  ((dats qOf m 0 c).arrAt_in w hw _).trans (A_eq qOf m c w)

/-- The frame: the seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c 0).trans (kept m c 0 rfl), (h c 2).trans (kept m c 2 rfl), (h c 3).trans (kept m c 3 rfl), (h c 4).trans (kept m c 4 rfl),
     (h c 5).trans (kept m c 5 rfl), (h c 6).trans (kept m c 6 rfl), (h c 7).trans (kept m c 7 rfl)⟩) (run_main m ρ)

end Cert.KernelIdeal.Hand

end
-- ==== Proof.AttnSpec.lean ====
/-
  Scaled dot-product attention with learned projections, as one function on the extended reals.

  For a batch entry b and a head h, the rows of x[b, h] are projected three times,
  q = x·Wqᵀ + bq, k = x·Wkᵀ + bk, v = x·Wvᵀ + bv (each W is stored [out, in]); the score of query row s against key row
  k is the inner product of their projections times 1/8; a row of scores is turned into weights by the softmax with
  the row maximum subtracted (the maximum taken from −∞, the sum of exponentials from 0); the result row is the weighted
  sum of the value rows. Everything is written over coordinates in `Fin`, so that a tiled program and a whole-array
  program can both be compared with it entry by entry.
-/
import Idealize.ShloMosaic.PureOps.Ideal
import Idealize.ShloMosaic.Lib.ValueIdx

noncomputable section

namespace Cert.Attn

open Idealize.ShloMosaic Idealize.ShloMosaic.ValueIdx

/-- The scale 1/8 = 1/√64, the binary word both programs carry. -/
abbrev scaleC : EReal := Ideal.ofBits .f32 0x3E000000#32
/-- −∞, the word a maximum starts from. -/
abbrev negInf : EReal := Ideal.ofBits .f32 0xFF800000#32
/-- 0, the word a sum starts from. -/
abbrev zeroC : EReal := Ideal.ofBits .f32 0x00000000#32

/-- One row times Wᵀ plus the bias: entry e is Σ_d x_d · W[e, d] + b_e. -/
def proj (x : Fin 64 → EReal) (W : Fin 64 → Fin 64 → EReal) (b : Fin 64 → EReal) (e : Fin 64) : EReal :=
  (∑ d : Fin 64, x d * W e d) + b e

/-- The scaled score of a projected query row against the k-th projected key row. -/
def score (q : Fin 64 → EReal) (K : Fin 2048 → Fin 64 → EReal) (k : Fin 2048) : EReal :=
  (∑ e : Fin 64, q e * K k e) * scaleC

/-- The maximum of a row of scores, taken from −∞ (and once more against −∞, as both programs do). -/
def rowMax (s : Fin 2048 → EReal) : EReal :=
  max negInf ((Finset.univ : Finset (Fin 2048)).fold max negInf s)

/-- The exponential of a score less the row maximum. -/
def expo (s : Fin 2048 → EReal) (k : Fin 2048) : EReal := Ideal.exp (s k - rowMax s)

/-- The sum of a row's exponentials, from 0. -/
def denom (s : Fin 2048 → EReal) : EReal := zeroC + ∑ k : Fin 2048, expo s k

/-- The softmax weight of key k. -/
def prob (s : Fin 2048 → EReal) (k : Fin 2048) : EReal := Ideal.div (expo s k) (denom s)

/-- The attention output row of a projected query against projected keys and values. -/
def attend (q : Fin 64 → EReal) (K V : Fin 2048 → Fin 64 → EReal) (d : Fin 64) : EReal :=
  ∑ k : Fin 2048, prob (score q K) k * V k d

/-- The whole result over coordinates: batch b, head h, row s, lane d. -/
def G (x : Fin 2 → Fin 16 → Fin 2048 → Fin 64 → EReal)
    (Wq : Fin 64 → Fin 64 → EReal) (bq : Fin 64 → EReal)
    (Wk : Fin 64 → Fin 64 → EReal) (bk : Fin 64 → EReal)
    (Wv : Fin 64 → Fin 64 → EReal) (bv : Fin 64 → EReal)
    (b : Fin 2) (h : Fin 16) (s : Fin 2048) (d : Fin 64) : EReal :=
  attend (proj (x b h s) Wq bq) (fun k => proj (x b h k) Wk bk) (fun k => proj (x b h k) Wv bv) d

/-- The shapes of the arrays, literally. -/
abbrev SX : Shape := ⟨4, ![2, 16, 2048, 64]⟩
abbrev SW : Shape := ⟨2, ![64, 64]⟩
abbrev SB : Shape := ⟨1, ![64]⟩

/-- The result as an array of the argument arrays. -/
def Garr (x : SX.Idx → EReal) (Wq : SW.Idx → EReal) (bq : SB.Idx → EReal) (Wk : SW.Idx → EReal) (bk : SB.Idx → EReal)
    (Wv : SW.Idx → EReal) (bv : SB.Idx → EReal) : SX.Idx → EReal := fun i =>
  G (fun b h s d => x (ix4 b h s d)) (fun e d => Wq (ix2 e d)) (fun e => bq (ix1 e))
    (fun e d => Wk (ix2 e d)) (fun e => bk (ix1 e)) (fun e d => Wv (ix2 e d)) (fun e => bv (ix1 e))
    (i 0) (i 1) (i 2) (i 3)

end Cert.Attn

end
-- ==== Proof.PayDot.lean ====
/-
  The four matrix products of the attention tile, each read at one entry.

  A product of an [m, k] matrix with a [k, n] matrix accumulated into the zero matrix is, at entry (p, c), the sum over
  the k contracted coordinates of lhs[p, j] · rhs[j, c]: the contraction's index set has one axis, so its sum is re-indexed
  through that axis's coordinate, and at that coordinate the two operands are read at (p, j) and (j, c).
-/
import proofs.«174484_j86217173500224_1_alg».proof.Proof.Gen.KernelIdeal.Skeleton
import Idealize.ShloMosaic.PureOps.Ideal.Laws
import Idealize.ShloMosaic.Lib.ValueIdx

noncomputable section

namespace Cert.Attn.Pay

open Cert.KernelIdeal Cert.KernelIdeal.Gen Idealize.ShloMosaic Idealize.ShloMosaic.ValueIdx

/-- On the rows' axis the left operand reads the result's row. -/
theorem dotKV_lhs0 (i : S2048x64.Idx) (q : dot_S2048x64_S64x64_S2048x64_1_0_0_1_n_n.contr.Idx) : (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
/-- On its contracted axis the left operand reads the contraction's coordinate. -/
theorem dotKV_lhs1 (i : S2048x64.Idx) (q : dot_S2048x64_S64x64_S2048x64_1_0_0_1_n_n.contr.Idx) : (dot_S2048x64_S64x64_S2048x64_1_0_0_1_n_n.lhsIdx i q 1).val = (q ⟨0, by decide⟩).val :=
  dot_S2048x64_S64x64_S2048x64_1_0_0_1_n_n.lhsIdx_val_of_single rfl i q
/-- On its contracted axis the right operand reads the contraction's coordinate. -/
theorem dotKV_rhs0 (i : S2048x64.Idx) (q : dot_S2048x64_S64x64_S2048x64_1_0_0_1_n_n.contr.Idx) : (dot_S2048x64_S64x64_S2048x64_1_0_0_1_n_n.rhsIdx i q 0).val = (q ⟨0, by decide⟩).val :=
  dot_S2048x64_S64x64_S2048x64_1_0_0_1_n_n.rhsIdx_val_of_single rfl i q
/-- On the columns' axis the right operand reads the result's column. -/
theorem dotKV_rhs1 (i : S2048x64.Idx) (q : dot_S2048x64_S64x64_S2048x64_1_0_0_1_n_n.contr.Idx) : (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl
/-- The [2048, 64] × [64, 64] product into the zero splat, at (p, c): Σ_k lhs[p, k] · rhs[k, c]. -/
theorem dotKV_apply {φ₁ φ₂ : FTy} (lhs : FVec Ideal S2048x64 φ₁) (rhs : FVec Ideal S64x64 φ₂) (p : Fin 2048) (c : Fin 64) :
    matmul dot_S2048x64_S64x64_S2048x64_1_0_0_1_n_n none lhs rhs (constant (F := Ideal) S2048x64 .f32 0x00000000#32) (ix2 p c)
      = ∑ k : Fin 64, lhs (ix2 p k) * rhs (ix2 k c) := by
  refine (Ideal.matmul_constant_zero_apply dot_S2048x64_S64x64_S2048x64_1_0_0_1_n_n none lhs rhs (ix2 p c)).trans ?_
  rw [← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 p c) ((contrEquiv1 dot_S2048x64_S64x64_S2048x64_1_0_0_1_n_n 64 rfl rfl).symm k) = ix2 p k := funext fun a => Fin.ext (by
    match a with
    | ⟨0, _⟩ => exact dotKV_lhs0 _ _
    | ⟨1, _⟩ => exact (dotKV_lhs1 _ _).trans hk)
  have er : dot_S2048x64_S64x64_S2048x64_1_0_0_1_n_n.rhsIdx (ix2 p c) ((contrEquiv1 dot_S2048x64_S64x64_S2048x64_1_0_0_1_n_n 64 rfl rfl).symm k) = ix2 k c := funext fun a => Fin.ext (by
    match a with
    | ⟨0, _⟩ => exact (dotKV_rhs0 _ _).trans hk
    | ⟨1, _⟩ => exact dotKV_rhs1 _ _)
  rw [el, er]

/-- On the rows' axis the left operand reads the result's row. -/
theorem dotQ_lhs0 (i : S512x64.Idx) (q : dot_S512x64_S64x64_S512x64_1_0_0_1_n_n.contr.Idx) : (dot_S512x64_S64x64_S512x64_1_0_0_1_n_n.lhsIdx i q 0).val = (i 0).val := by
  unfold DotDims.lhsIdx
  rw [dif_neg (show ¬(0 : Fin S512x64.rank) ∈ dot_S512x64_S64x64_S512x64_1_0_0_1_n_n.lhsBatch by decide), dif_pos (show (0 : Fin S512x64.rank) ∈ dot_S512x64_S64x64_S512x64_1_0_0_1_n_n.lhsNonContracting by decide)]
  rfl
/-- On its contracted axis the left operand reads the contraction's coordinate. -/
theorem dotQ_lhs1 (i : S512x64.Idx) (q : dot_S512x64_S64x64_S512x64_1_0_0_1_n_n.contr.Idx) : (dot_S512x64_S64x64_S512x64_1_0_0_1_n_n.lhsIdx i q 1).val = (q ⟨0, by decide⟩).val :=
  dot_S512x64_S64x64_S512x64_1_0_0_1_n_n.lhsIdx_val_of_single rfl i q
/-- On its contracted axis the right operand reads the contraction's coordinate. -/
theorem dotQ_rhs0 (i : S512x64.Idx) (q : dot_S512x64_S64x64_S512x64_1_0_0_1_n_n.contr.Idx) : (dot_S512x64_S64x64_S512x64_1_0_0_1_n_n.rhsIdx i q 0).val = (q ⟨0, by decide⟩).val :=
  dot_S512x64_S64x64_S512x64_1_0_0_1_n_n.rhsIdx_val_of_single rfl i q
/-- On the columns' axis the right operand reads the result's column. -/
theorem dotQ_rhs1 (i : S512x64.Idx) (q : dot_S512x64_S64x64_S512x64_1_0_0_1_n_n.contr.Idx) : (dot_S512x64_S64x64_S512x64_1_0_0_1_n_n.rhsIdx i q 1).val = (i 1).val := by
  unfold DotDims.rhsIdx
  rw [dif_neg (show ¬(1 : Fin S64x64.rank) ∈ dot_S512x64_S64x64_S512x64_1_0_0_1_n_n.rhsBatch by decide), dif_pos (show (1 : Fin S64x64.rank) ∈ dot_S512x64_S64x64_S512x64_1_0_0_1_n_n.rhsNonContracting by decide)]
  rfl
/-- The [512, 64] × [64, 64] product into the zero splat, at (p, c): Σ_k lhs[p, k] · rhs[k, c]. -/
theorem dotQ_apply {φ₁ φ₂ : FTy} (lhs : FVec Ideal S512x64 φ₁) (rhs : FVec Ideal S64x64 φ₂) (p : Fin 512) (c : Fin 64) :
    matmul dot_S512x64_S64x64_S512x64_1_0_0_1_n_n none lhs rhs (constant (F := Ideal) S512x64 .f32 0x00000000#32) (ix2 p c)
      = ∑ k : Fin 64, lhs (ix2 p k) * rhs (ix2 k c) := by
  refine (Ideal.matmul_constant_zero_apply dot_S512x64_S64x64_S512x64_1_0_0_1_n_n none lhs rhs (ix2 p c)).trans ?_
  rw [← Equiv.sum_comp (contrEquiv1 dot_S512x64_S64x64_S512x64_1_0_0_1_n_n 64 rfl rfl).symm]
  refine Finset.sum_congr rfl fun k _ => ?_
  have hk := contrEquiv1_symm_val dot_S512x64_S64x64_S512x64_1_0_0_1_n_n 64 rfl rfl k
  have el : dot_S512x64_S64x64_S512x64_1_0_0_1_n_n.lhsIdx (ix2 p c) ((contrEquiv1 dot_S512x64_S64x64_S512x64_1_0_0_1_n_n 64 rfl rfl).symm k) = ix2 p k := funext fun a => Fin.ext (by
    match a with
    | ⟨0, _⟩ => exact dotQ_lhs0 _ _
    | ⟨1, _⟩ => exact (dotQ_lhs1 _ _).trans hk)
  have er : dot_S512x64_S64x64_S512x64_1_0_0_1_n_n.rhsIdx (ix2 p c) ((contrEquiv1 dot_S512x64_S64x64_S512x64_1_0_0_1_n_n 64 rfl rfl).symm k) = ix2 k c := funext fun a => Fin.ext (by
    match a with
    | ⟨0, _⟩ => exact (dotQ_rhs0 _ _).trans hk
    | ⟨1, _⟩ => exact dotQ_rhs1 _ _)
  rw [el, er]

/-- On the rows' axis the left operand reads the result's row. -/
theorem dotS_lhs0 (i : S512x2048.Idx) (q : dot_S512x64_S64x2048_S512x2048_1_0_0_1_n_n.contr.Idx) : (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
/-- On its contracted axis the left operand reads the contraction's coordinate. -/
theorem dotS_lhs1 (i : S512x2048.Idx) (q : dot_S512x64_S64x2048_S512x2048_1_0_0_1_n_n.contr.Idx) : (dot_S512x64_S64x2048_S512x2048_1_0_0_1_n_n.lhsIdx i q 1).val = (q ⟨0, by decide⟩).val :=
  dot_S512x64_S64x2048_S512x2048_1_0_0_1_n_n.lhsIdx_val_of_single rfl i q
/-- On its contracted axis the right operand reads the contraction's coordinate. -/
theorem dotS_rhs0 (i : S512x2048.Idx) (q : dot_S512x64_S64x2048_S512x2048_1_0_0_1_n_n.contr.Idx) : (dot_S512x64_S64x2048_S512x2048_1_0_0_1_n_n.rhsIdx i q 0).val = (q ⟨0, by decide⟩).val :=
  dot_S512x64_S64x2048_S512x2048_1_0_0_1_n_n.rhsIdx_val_of_single rfl i q
/-- On the columns' axis the right operand reads the result's column. -/
theorem dotS_rhs1 (i : S512x2048.Idx) (q : dot_S512x64_S64x2048_S512x2048_1_0_0_1_n_n.contr.Idx) : (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl
/-- The [512, 64] × [64, 2048] product into the zero splat, at (p, c): Σ_k lhs[p, k] · rhs[k, c]. -/
theorem dotS_apply {φ₁ φ₂ : FTy} (lhs : FVec Ideal S512x64 φ₁) (rhs : FVec Ideal S64x2048 φ₂) (p : Fin 512) (c : Fin 2048) :
    matmul dot_S512x64_S64x2048_S512x2048_1_0_0_1_n_n none lhs rhs (constant (F := Ideal) S512x2048 .f32 0x00000000#32) (ix2 p c)
      = ∑ k : Fin 64, lhs (ix2 p k) * rhs (ix2 k c) := by
  refine (Ideal.matmul_constant_zero_apply dot_S512x64_S64x2048_S512x2048_1_0_0_1_n_n none lhs rhs (ix2 p c)).trans ?_
  rw [← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 p c) ((contrEquiv1 dot_S512x64_S64x2048_S512x2048_1_0_0_1_n_n 64 rfl rfl).symm k) = ix2 p k := funext fun a => Fin.ext (by
    match a with
    | ⟨0, _⟩ => exact dotS_lhs0 _ _
    | ⟨1, _⟩ => exact (dotS_lhs1 _ _).trans hk)
  have er : dot_S512x64_S64x2048_S512x2048_1_0_0_1_n_n.rhsIdx (ix2 p c) ((contrEquiv1 dot_S512x64_S64x2048_S512x2048_1_0_0_1_n_n 64 rfl rfl).symm k) = ix2 k c := funext fun a => Fin.ext (by
    match a with
    | ⟨0, _⟩ => exact (dotS_rhs0 _ _).trans hk
    | ⟨1, _⟩ => exact dotS_rhs1 _ _)
  rw [el, er]

/-- On the rows' axis the left operand reads the result's row. -/
theorem dotO_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
/-- On its contracted axis the left operand reads the contraction's coordinate. -/
theorem dotO_lhs1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
/-- On its contracted axis the right operand reads the contraction's coordinate. -/
theorem dotO_rhs0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
/-- On the columns' axis the right operand reads the result's column. -/
theorem dotO_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl
/-- The [512, 2048] × [2048, 64] product into the zero splat, at (p, c): Σ_k lhs[p, k] · rhs[k, c]. -/
theorem dotO_apply {φ₁ φ₂ : FTy} (lhs : FVec Ideal S512x2048 φ₁) (rhs : FVec Ideal S2048x64 φ₂) (p : Fin 512) (c : Fin 64) :
    matmul dot_S512x2048_S2048x64_S512x64_1_0_0_1_n_n none lhs rhs (constant (F := Ideal) S512x64 .f32 0x00000000#32) (ix2 p c)
      = ∑ k : Fin 2048, lhs (ix2 p k) * rhs (ix2 k c) := by
  refine (Ideal.matmul_constant_zero_apply dot_S512x2048_S2048x64_S512x64_1_0_0_1_n_n none lhs rhs (ix2 p c)).trans ?_
  rw [← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 p c) ((contrEquiv1 dot_S512x2048_S2048x64_S512x64_1_0_0_1_n_n 2048 rfl rfl).symm k) = ix2 p k := funext fun a => Fin.ext (by
    match a with
    | ⟨0, _⟩ => exact dotO_lhs0 _ _
    | ⟨1, _⟩ => exact (dotO_lhs1 _ _).trans hk)
  have er : dot_S512x2048_S2048x64_S512x64_1_0_0_1_n_n.rhsIdx (ix2 p c) ((contrEquiv1 dot_S512x2048_S2048x64_S512x64_1_0_0_1_n_n 2048 rfl rfl).symm k) = ix2 k c := funext fun a => Fin.ext (by
    match a with
    | ⟨0, _⟩ => exact (dotO_rhs0 _ _).trans hk
    | ⟨1, _⟩ => exact dotO_rhs1 _ _)
  rw [el, er]

end Cert.Attn.Pay

end
-- ==== Proof.PayLayout.lean ====
/-
  Shape casts and broadcasts of the attention tile, each read at an index written by coordinates.

  A shape cast keeps the row-major position: dropping or adding unit axes does not move an entry, so a [1, 1, a, b]
  array viewed [a, b] reads (0, 0, i, j) at (i, j) (and back), and a vector [a] viewed as the column [a, 1] reads i at
  (i, 0). A column [a, 1] broadcast along the lanes to [a, b] reads its one entry of row p at every (p, c).
-/
import Idealize.ShloMosaic.Lib.ValueLayout

namespace Cert.Attn.Pay

open Idealize.ShloMosaic Idealize.ShloMosaic.ValueIdx

variable {α : Type}

/-- A [1, 1, a, b] array cast to [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] array cast to [1, 1, a, b] reads, at (u, v, i, j), the operand at (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- A vector [a] cast to the column [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Pay
-- ==== Proof.PayProj.lean ====
/-
  The key and value projections of the attention tile, read at one entry.

  The block of x is recast [1, 1, 2048, 64] → [2048, 64] without moving an entry; the weight matrix W, stored
  [out, in], is transposed, so that the product's entry (k, e) is Σ_d x[k, d] · W[e, d]; the bias b is viewed as one
  row [1, 64] and that row is repeated over the 2048 rows, so that b[e] is added at (k, e). The format changes are the
  identity on the extended reals. This is the specification's `proj` of row k.
-/
import proofs.«174484_j86217173500224_1_alg».proof.Proof.Gen.KernelIdeal.Skeleton
import proofs.«174484_j86217173500224_1_alg».proof.Proof.AttnSpec
import proofs.«174484_j86217173500224_1_alg».proof.Proof.PayDot
import proofs.«174484_j86217173500224_1_alg».proof.Proof.PayLayout

noncomputable section

namespace Cert.Attn.Pay

open Cert.KernelIdeal Cert.KernelIdeal.Gen Idealize.ShloMosaic Idealize.ShloMosaic.ValueIdx

/-- The block of x recast [1, 1, 2048, 64] → [2048, 64], at (k, d): the block at (0, 0, k, d). -/
theorem pay2_apply (xf : Vec Ideal S1x1x2048x64 .f32) (k : Fin 2048) (d : Fin 64) :
    k0_pay2 (F := Ideal) xf (ix2 k d) = xf (ix4 0 0 k d) := by
  unfold k0_pay2
  exact shapeCast_11ab_ab_apply xf _ k d

/-- A weight matrix transposed, at (d, e): the matrix at (e, d). -/
theorem wT_apply (W : Vec Ideal S64x64 .f32) (d e : Fin 64) :
    transpose S64x64 [1, 0] (truncf (F := Ideal) .bf16 W bitsLt_bf16_f32) transposes_S64x64_p1_0_S64x64 (ix2 d e) = W (ix2 e d) :=
  transpose_ix2_apply _ _ d e

/-- The bias as one row repeated over the 2048 rows, at (k, e): b[e]. -/
theorem biasRows2048_apply (b : Vec Ideal S64 .f32) (k : Fin 2048) (e : Fin 64) :
    broadcastTo S2048x64 (shapeCast S1x64 b shapeCasts_S64_S1x64) broadcasts_S1x64_S2048x64 (ix2 k e) = b (ix1 e) :=
  (broadcastTo_1b_ab_apply _ _ k e).trans (shapeCast_a_1a_apply b _ 0 e)

/-- The bias as one row repeated over the 512 rows, at (r, e): b[e]. -/
theorem biasRows512_apply (b : Vec Ideal S64 .f32) (r : Fin 512) (e : Fin 64) :
    broadcastTo S512x64 (shapeCast S1x64 b shapeCasts_S64_S1x64) broadcasts_S1x64_S512x64 (ix2 r e) = b (ix1 e) :=
  (broadcastTo_1b_ab_apply _ _ r e).trans (shapeCast_a_1a_apply b _ 0 e)

/-- The key scratch at (k, e) is the projection of row k of the block of x. -/
theorem pay3_apply (xf : Vec Ideal S1x1x2048x64 .f32) (W : Vec Ideal S64x64 .f32) (b : Vec Ideal S64 .f32) (k : Fin 2048) (e : Fin 64) :
    k0_pay3 (F := Ideal) xf W b (ix2 k e)
      = Cert.Attn.proj (fun d => xf (ix4 0 0 k d)) (fun e' d => W (ix2 e' d)) (fun e' => b (ix1 e')) e := by
  unfold k0_pay3 Cert.Attn.proj
  rw [shapeCast_self]
  show matmul dot_S2048x64_S64x64_S2048x64_1_0_0_1_n_n none (k0_pay2 xf) _ (constant (F := Ideal) S2048x64 .f32 0x00000000#32) (ix2 k e) + _ = _
  rw [dotKV_apply, biasRows2048_apply]
  refine congrArg (· + b (ix1 e)) (Finset.sum_congr rfl fun d _ => ?_)
  rw [pay2_apply, wT_apply]

/-- The value scratch at (k, e) is the projection of row k of the block of x. -/
theorem pay4_apply (xf : Vec Ideal S1x1x2048x64 .f32) (W : Vec Ideal S64x64 .f32) (b : Vec Ideal S64 .f32) (k : Fin 2048) (e : Fin 64) :
    k0_pay4 (F := Ideal) xf W b (ix2 k e)
      = Cert.Attn.proj (fun d => xf (ix4 0 0 k d)) (fun e' d => W (ix2 e' d)) (fun e' => b (ix1 e')) e := by
  unfold k0_pay4 Cert.Attn.proj
  rw [shapeCast_self]
  show matmul dot_S2048x64_S64x64_S2048x64_1_0_0_1_n_n none (k0_pay2 xf) _ (constant (F := Ideal) S2048x64 .f32 0x00000000#32) (ix2 k e) + _ = _
  rw [dotKV_apply, biasRows2048_apply]
  refine congrArg (· + b (ix1 e)) (Finset.sum_congr rfl fun d _ => ?_)
  rw [pay2_apply, wT_apply]

end Cert.Attn.Pay

end
-- ==== Proof.LibRowMax.lean ====
/-
  The maximum of a row of a matrix, at the ideal instance.

  A float reduction with a maximum body over the lanes of an [a, b] matrix, read at row p, is the fold of max, from
  the value the accumulator's word denotes, over the b entries of row p: the reduced index p with lane k put back is
  (p, k), and max on the extended reals commutes and associates, so the fold does not depend on the order of the lanes.
-/
import Idealize.ShloMosaic.PureOps.Ideal.Laws
import Idealize.ShloMosaic.Lib.ValueIdx

noncomputable section

namespace Cert.Lib.RowMax

open Idealize.ShloMosaic Idealize.ShloMosaic.ValueIdx

/-- The reduced index p with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane maximum of an [a, b] matrix, at row p, is the fold of max over the b entries of row p. -/
theorem rowMax_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction .maximumf [1] (⟨1, ![a]⟩ : Shape) src acc h hφ hacc (ix1 p)
      = (Finset.univ : Finset (Fin b)).fold max (Ideal.ofBits φ acc) (fun k => src (ix2 p k)) := by
  rw [Ideal.multiReduction_maximumf_single]
  exact congrArg (fun f => Finset.fold max (Ideal.ofBits φ acc) f (Finset.univ : Finset (Fin b)))
    (funext fun k => by show src (h.lift (ix1 p) k) = src (ix2 p k); rw [lift_lane]; rfl)

end Cert.Lib.RowMax

end
-- ==== Proof.PaySoftmax.lean ====
/-
  The softmax of a tile of scores, and the scores themselves, read at one entry.

  For a [512, 2048] tile s of scores the tile computes, row by row: the maximum over the 2048 lanes, taken from −∞ and
  once more against −∞; the exponential of each score less its row's maximum; the sum of a row's exponentials, from 0;
  the quotient. A per-row quantity is carried as a vector [512], viewed as a column [512, 1] and repeated along the lanes,
  so at (r, k) it reads the vector at r. The sum's accumulator is the word of 0, and on the extended reals 0 + S = S.
  The scores are the query tile times the transposed key matrix, times the word of 1/8.
-/
import proofs.«174484_j86217173500224_1_alg».proof.Proof.Gen.KernelIdeal.Skeleton
import proofs.«174484_j86217173500224_1_alg».proof.Proof.AttnSpec
import proofs.«174484_j86217173500224_1_alg».proof.Proof.LibRowMax
import proofs.«174484_j86217173500224_1_alg».proof.Proof.PayDot
import proofs.«174484_j86217173500224_1_alg».proof.Proof.PayLayout

noncomputable section

namespace Cert.Attn.Pay

open Cert.KernelIdeal Cert.KernelIdeal.Gen Idealize.ShloMosaic Idealize.ShloMosaic.ValueIdx

/-- An exponential at an index is the exponential of the element. -/
theorem exp_apply {s : Shape} {φ : FTy} (a : FVec Ideal s φ) (i : s.Idx) : exp a i = Ideal.exp (a i) := rfl

/-- The lane sum of an [a, b] matrix, at row p, is the sum over the b entries of row p. -/
theorem rowSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.add.neutral φ hφ) (p : Fin a) :
    multiReduction .add [1] (⟨1, ![a]⟩ : Shape) src acc h hφ hacc (ix1 p) = ∑ k : Fin b, src (ix2 p k) := by
  rw [Ideal.multiReduction_add_single]
  exact congrArg (fun f => ∑ k : Fin b, f k)
    (funext fun k => congrArg src (Cert.Lib.RowMax.lift_lane h p k))

/-- The row maxima of a tile of scores: the lane maximum from −∞, then once more against −∞. -/
def tileMax (s : FVec Ideal S512x2048 .f32) : FVec Ideal S512 .f32 :=
  maximumf (broadcast S512 (Scalar.ofBits (F := Ideal) .f32 0xFF800000#32))
    (multiReduction .maximumf [1] S512 s 0xFF800000#32 reduces_S512x2048_S512 (.inl rfl) rfl)

/-- At row r it is the specification's row maximum of that row. -/
theorem tileMax_apply (s : FVec Ideal S512x2048 .f32) (r : Fin 512) :
    tileMax s (ix1 r) = Cert.Attn.rowMax (fun k => s (ix2 r k)) := by
  unfold tileMax Cert.Attn.rowMax
  refine (maximumf_apply _ _ (ix1 r)).trans ?_
  rw [broadcast_apply]
  exact congrArg (max _) (Cert.Lib.RowMax.rowMax_apply s _ _ _ _ r)

/-- A per-row vector viewed as a column and repeated along the 2048 lanes. -/
def tileCol (v : FVec Ideal S512 .f32) : FVec Ideal S512x2048 .f32 :=
  broadcastTo S512x2048 (shapeCast S512x1 v shapeCasts_S512_S512x1) broadcasts_S512x1_S512x2048

/-- At (r, k) it reads the vector at r. -/
theorem tileCol_apply (v : FVec Ideal S512 .f32) (r : Fin 512) (k : Fin 2048) : tileCol v (ix2 r k) = v (ix1 r) :=
  (broadcastTo_a1_ab_apply _ _ r k).trans (shapeCast_a_a1_apply v _ r 0)

/-- The exponentials of the scores less their row's maximum. -/
def tileExp (s : FVec Ideal S512x2048 .f32) : FVec Ideal S512x2048 .f32 := exp (subf s (tileCol (tileMax s)))

/-- At (r, k): the specification's exponential for key k of row r. -/
theorem tileExp_apply (s : FVec Ideal S512x2048 .f32) (r : Fin 512) (k : Fin 2048) :
    tileExp s (ix2 r k) = Cert.Attn.expo (fun k' => s (ix2 r k')) k := by
  unfold tileExp Cert.Attn.expo
  rw [exp_apply, subf_apply, tileCol_apply, tileMax_apply]

/-- The row sums of a tile, accumulated from the word of 0. -/
def tileSum (e : FVec Ideal S512x2048 .f32) : FVec Ideal S512 .f32 :=
  multiReduction .add [1] S512 e 0x00000000#32 reduces_S512x2048_S512 (.inl rfl) rfl

/-- At row r: the value of the word of 0 plus the sum of the row. -/
theorem tileSum_apply (e : FVec Ideal S512x2048 .f32) (r : Fin 512) :
    tileSum e (ix1 r) = Cert.Attn.zeroC + ∑ k : Fin 2048, e (ix2 r k) := by
  refine (rowSum_apply e 0x00000000#32 reduces_S512x2048_S512 (.inl rfl) rfl r).trans ?_
  rw [show Cert.Attn.zeroC = 0 from Ideal.ofBits_zero_f32, zero_add]

/-- The softmax weights of a tile of scores. -/
def tileSoftmax (s : FVec Ideal S512x2048 .f32) : FVec Ideal S512x2048 .f32 :=
  divf (tileExp s) (tileCol (tileSum (tileExp s)))

/-- At (r, k): the specification's weight of key k in row r. -/
theorem tileSoftmax_apply (s : FVec Ideal S512x2048 .f32) (r : Fin 512) (k : Fin 2048) :
    tileSoftmax s (ix2 r k) = Cert.Attn.prob (fun k' => s (ix2 r k')) k := by
  unfold tileSoftmax Cert.Attn.prob Cert.Attn.denom
  rw [divf_apply, tileCol_apply, tileSum_apply, tileExp_apply]
  exact congrArg (fun f => Ideal.div (Cert.Attn.expo (fun k' => s (ix2 r k')) k) (Cert.Attn.zeroC + ∑ k', f k'))
    (funext fun k' => tileExp_apply s r k')

/-- The scaled scores of a query tile against the key matrix. -/
def tileScores (q : FVec Ideal S512x64 .bf16) (Ks : Vec Ideal S2048x64 .bf16) : FVec Ideal S512x2048 .f32 :=
  mulf (matmul dot_S512x64_S64x2048_S512x2048_1_0_0_1_n_n none q
      (transpose S64x2048 [1, 0] Ks transposes_S2048x64_p1_0_S64x2048 : FVec Ideal S64x2048 .bf16)
      (constant S512x2048 .f32 0x00000000#32))
    (broadcast S512x2048 (Scalar.ofBits (F := Ideal) .f32 0x3E000000#32))

/-- At (r, k): the specification's score of query row r against key row k. -/
theorem tileScores_apply (q : FVec Ideal S512x64 .bf16) (Ks : Vec Ideal S2048x64 .bf16) (r : Fin 512) (k : Fin 2048) :
    tileScores q Ks (ix2 r k) = Cert.Attn.score (fun e => q (ix2 r e)) (fun k' e => Ks (ix2 k' e)) k := by
  unfold tileScores Cert.Attn.score
  rw [mulf_apply, broadcast_apply, dotS_apply]
  refine congrArg (· * Cert.Attn.scaleC) (Finset.sum_congr rfl fun e _ => ?_)
  rw [transpose_ix2_apply]

end Cert.Attn.Pay

end
-- ==== Proof.PayAttn.lean ====
/-
  The attention tile read at one entry, and the recast of the result for the output block.

  The query tile is the projection of its 512 rows of x (recast [1, 1, 512, 64] → [512, 64], times the transposed
  weight matrix, plus the bias row repeated over the rows); the tile's result is the softmax weights of its scores
  against the key matrix, times the value matrix: at (r, d) the sum over the 2048 keys of the weight of key k in row r
  times V[k, d] — the specification's `attend` of the projected query row r. The result is recast
  [512, 64] → [1, 1, 512, 64] without moving an entry.
-/
import proofs.«174484_j86217173500224_1_alg».proof.Proof.Gen.KernelIdeal.Skeleton
import proofs.«174484_j86217173500224_1_alg».proof.Proof.AttnSpec
import proofs.«174484_j86217173500224_1_alg».proof.Proof.PayDot
import proofs.«174484_j86217173500224_1_alg».proof.Proof.PayLayout
import proofs.«174484_j86217173500224_1_alg».proof.Proof.PayProj
import proofs.«174484_j86217173500224_1_alg».proof.Proof.PaySoftmax

noncomputable section

namespace Cert.Attn.Pay

open Cert.KernelIdeal Cert.KernelIdeal.Gen Idealize.ShloMosaic Idealize.ShloMosaic.ValueIdx

/-- The projected query tile. -/
def tileQ (xt : Vec Ideal S1x1x512x64 .f32) (Wq : Vec Ideal S64x64 .f32) (bq : Vec Ideal S64 .f32) : FVec Ideal S512x64 .bf16 :=
  truncf .bf16 (addf
    (matmul dot_S512x64_S64x64_S512x64_1_0_0_1_n_n none
      (truncf .bf16 (shapeCast S512x64 xt shapeCasts_S1x1x512x64_S512x64) bitsLt_bf16_f32)
      (transpose S64x64 [1, 0] (truncf .bf16 Wq bitsLt_bf16_f32) transposes_S64x64_p1_0_S64x64)
      (constant S512x64 .f32 0x00000000#32))
    (broadcastTo S512x64 (shapeCast S1x64 bq shapeCasts_S64_S1x64) broadcasts_S1x64_S512x64)) bitsLt_bf16_f32

/-- At (r, e): the projection of row r of the query block of x. -/
theorem tileQ_apply (xt : Vec Ideal S1x1x512x64 .f32) (Wq : Vec Ideal S64x64 .f32) (bq : Vec Ideal S64 .f32) (r : Fin 512) (e : Fin 64) :
    tileQ xt Wq bq (ix2 r e)
      = Cert.Attn.proj (fun d' => xt (ix4 0 0 r d')) (fun e' d' => Wq (ix2 e' d')) (fun e' => bq (ix1 e')) e := by
  unfold tileQ Cert.Attn.proj
  show matmul dot_S512x64_S64x64_S512x64_1_0_0_1_n_n none _ _ (constant (F := Ideal) S512x64 .f32 0x00000000#32) (ix2 r e) + _ = _
  rw [dotQ_apply, biasRows512_apply]
  refine congrArg (· + bq (ix1 e)) (Finset.sum_congr rfl fun d' _ => ?_)
  rw [wT_apply]
  exact congrArg (· * Wq (ix2 e d')) (shapeCast_11ab_ab_apply xt _ r d')

/-- The tile's result is the softmax weights of the projected queries' scores, times the value matrix. -/
theorem pay5_eq (xt : Vec Ideal S1x1x512x64 .f32) (Wq : Vec Ideal S64x64 .f32) (bq : Vec Ideal S64 .f32)
    (Ks Vs : Vec Ideal S2048x64 .bf16) :
    k0_pay5 (F := Ideal) xt Wq bq Ks Vs
      = matmul (φ₂ := .bf16) dot_S512x2048_S2048x64_S512x64_1_0_0_1_n_n none
          (truncf .bf16 (tileSoftmax (tileScores (tileQ xt Wq bq) Ks)) bitsLt_bf16_f32) Vs
          (constant S512x64 .f32 0x00000000#32) := rfl

/-- The tile's result at (r, d) is the attention output of the projected query row r. -/
theorem pay5_apply (xt : Vec Ideal S1x1x512x64 .f32) (Wq : Vec Ideal S64x64 .f32) (bq : Vec Ideal S64 .f32)
    (Ks Vs : Vec Ideal S2048x64 .bf16) (r : Fin 512) (d : Fin 64) :
    k0_pay5 (F := Ideal) xt Wq bq Ks Vs (ix2 r d)
      = Cert.Attn.attend
          (Cert.Attn.proj (fun d' => xt (ix4 0 0 r d')) (fun e d' => Wq (ix2 e d')) (fun e => bq (ix1 e)))
          (fun k e => Ks (ix2 k e)) (fun k d' => Vs (ix2 k d')) d := by
  rw [pay5_eq]
  refine (dotO_apply (φ₂ := .bf16) _ Vs r d).trans ?_
  unfold Cert.Attn.attend
  refine Finset.sum_congr rfl fun k _ => ?_
  refine congrArg (· * Vs (ix2 k d)) ?_
  refine (tileSoftmax_apply _ r k).trans ?_
  refine congrArg (fun s => Cert.Attn.prob s k) (funext fun k' => ?_)
  refine (tileScores_apply _ Ks r k').trans ?_
  exact congrArg (fun q => Cert.Attn.score q (fun k e => Ks (ix2 k e)) k') (funext fun e => tileQ_apply xt Wq bq r e)

/-- The result recast [512, 64] → [1, 1, 512, 64], at (0, 0, r, d): the result at (r, d). -/
theorem pay1_apply (v : FVec Ideal S512x64 .f32) (r : Fin 512) (d : Fin 64) :
    k0_pay1 (F := Ideal) v (ix4 0 0 r d) = v (ix2 r d) := by
  unfold k0_pay1
  exact shapeCast_ab_11ab_apply v _ 0 0 r d

end Cert.Attn.Pay

end
-- ==== Proof.ValueKI.lean ====
/-
  What the result array holds after the run, at the ideal instance.

  By induction on the point: after point t the two carried buffers hold the key and value projections of head
  (t / 64, (t / 4) mod 16)'s slab of x — computed at the head's first tile and kept over its three later tiles, which
  are points of the same head — and the output buffer holds the attention rows 512·(t mod 4) + 0..511 of that head.
  So each point writes back its block of the specification's array, the 128 blocks tile the result, and the result
  array ends as the specification of the seven argument arrays.
-/
import proofs.«174484_j86217173500224_1_alg».proof.Proof.Gen.KernelIdeal.Launch
import proofs.«174484_j86217173500224_1_alg».proof.Proof.Gen.KernelIdeal.Skeleton
import proofs.«174484_j86217173500224_1_alg».proof.Proof.Gen.KernelIdeal.Points
import proofs.«174484_j86217173500224_1_alg».proof.Proof.PiecesKI
import proofs.«174484_j86217173500224_1_alg».proof.Proof.BlocksKI
import proofs.«174484_j86217173500224_1_alg».proof.Proof.RunKI
import proofs.«174484_j86217173500224_1_alg».proof.Proof.PayAttn
import proofs.«174484_j86217173500224_1_alg».proof.Proof.AttnSpec
import Idealize.ShloMosaic.Lib.Pipeline.Value
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Attn Cert.Attn.Pay

variable (m : (ℓ : Loc nD τ sig) → Buf (Elt Ideal) ℓ) (ρ : Dev nD → PrngReg) (c : Dev nD)

/-- The argument arrays over coordinates. -/
abbrev X4 : Fin 2 → Fin 16 → Fin 2048 → Fin 64 → EReal := fun b h s d => Vm m c main_arg0 (ix4 b h s d)
abbrev Wq2 : Fin 64 → Fin 64 → EReal := fun e d => Vm m c main_arg1 (ix2 e d)
abbrev bq1 : Fin 64 → EReal := fun e => Vm m c main_arg2 (ix1 e)
abbrev Wk2 : Fin 64 → Fin 64 → EReal := fun e d => Vm m c main_arg3 (ix2 e d)
abbrev bk1 : Fin 64 → EReal := fun e => Vm m c main_arg4 (ix1 e)
abbrev Wv2 : Fin 64 → Fin 64 → EReal := fun e d => Vm m c main_arg5 (ix2 e d)
abbrev bv1 : Fin 64 → EReal := fun e => Vm m c main_arg6 (ix1 e)

/-- A projection payload of the slab window's block, with a weight and a bias window's blocks, is the projection of
    the head's rows. -/
theorem slab_rows (t : Fin cfg0.N) (k : Fin 2048) : (fun d => iblk m c 0 t (ix4 0 0 k d)) = X4 m c (bOf t) (hOf t) k :=
  funext fun d => iblk0_apply m c t _
theorem tile_rows (t : Fin cfg0.N) (r : Fin 512) : (fun d => iblk m c 1 t (ix4 0 0 r d)) = X4 m c (bOf t) (hOf t) (rowOf t r) :=
  funext fun d => iblk1_apply m c t _
theorem wq_blk (t : Fin cfg0.N) : (fun e d => iblk m c 2 t (ix2 e d)) = Wq2 m c := funext fun e => funext fun d => iblk2_apply m c t _
theorem bq_blk (t : Fin cfg0.N) : (fun e => iblk m c 3 t (ix1 e)) = bq1 m c := funext fun e => iblk3_apply m c t _
theorem wk_blk (t : Fin cfg0.N) : (fun e d => iblk m c 4 t (ix2 e d)) = Wk2 m c := funext fun e => funext fun d => iblk4_apply m c t _
theorem bk_blk (t : Fin cfg0.N) : (fun e => iblk m c 5 t (ix1 e)) = bk1 m c := funext fun e => iblk5_apply m c t _
theorem wv_blk (t : Fin cfg0.N) : (fun e d => iblk m c 6 t (ix2 e d)) = Wv2 m c := funext fun e => funext fun d => iblk6_apply m c t _
theorem bv_blk (t : Fin cfg0.N) : (fun e => iblk m c 7 t (ix1 e)) = bv1 m c := funext fun e => iblk7_apply m c t _

/-- What the three written buffers hold after point n. -/
structure Inv (n : ℕ) (hn : n < cfg0.N) : Prop where
  keys : ∀ (k : Fin 2048) (e : Fin 64), (outsAt m c n hn).2.1 (ix2 k e) = proj (X4 m c (bOf ⟨n, hn⟩) (hOf ⟨n, hn⟩) k) (Wk2 m c) (bk1 m c) e
  vals : ∀ (k : Fin 2048) (e : Fin 64), (outsAt m c n hn).2.2 (ix2 k e) = proj (X4 m c (bOf ⟨n, hn⟩) (hOf ⟨n, hn⟩) k) (Wv2 m c) (bv1 m c) e
  outp : ∀ (r : Fin 512) (d : Fin 64), (outsAt m c n hn).1 (ix4 0 0 r d)
      = G (X4 m c) (Wq2 m c) (bq1 m c) (Wk2 m c) (bk1 m c) (Wv2 m c) (bv1 m c) (bOf ⟨n, hn⟩) (hOf ⟨n, hn⟩) (rowOf ⟨n, hn⟩ r) d

/-- The tile's result from carried buffers that hold the head's projections is the specification's rows. -/
theorem tile_result (t : Fin cfg0.N) (Ks Vs : Vec Ideal S2048x64 .bf16)
    (hK : ∀ (k : Fin 2048) (e : Fin 64), Ks (ix2 k e) = proj (X4 m c (bOf t) (hOf t) k) (Wk2 m c) (bk1 m c) e)
    (hV : ∀ (k : Fin 2048) (e : Fin 64), Vs (ix2 k e) = proj (X4 m c (bOf t) (hOf t) k) (Wv2 m c) (bv1 m c) e)
    (r : Fin 512) (d : Fin 64) :
    k0_pay1 (F := Ideal) (k0_pay5 (F := Ideal) (iblk m c 1 t) (iblk m c 2 t) (iblk m c 3 t) Ks Vs) (ix4 0 0 r d)
      = G (X4 m c) (Wq2 m c) (bq1 m c) (Wk2 m c) (bk1 m c) (Wv2 m c) (bv1 m c) (bOf t) (hOf t) (rowOf t r) d := by
  rw [pay1_apply, pay5_apply, tile_rows, wq_blk, bq_blk]
  have eK : (fun k e => Ks (ix2 k e)) = fun k => proj (X4 m c (bOf t) (hOf t) k) (Wk2 m c) (bk1 m c) := funext fun k => funext fun e => hK k e
  have eV : (fun k e => Vs (ix2 k e)) = fun k => proj (X4 m c (bOf t) (hOf t) k) (Wv2 m c) (bv1 m c) := funext fun k => funext fun e => hV k e
  rw [eK, eV]
  rfl

theorem key_proj (t : Fin cfg0.N) (k : Fin 2048) (e : Fin 64) :
    k0_pay3 (F := Ideal) (iblk m c 0 t) (iblk m c 4 t) (iblk m c 5 t) (ix2 k e) = proj (X4 m c (bOf t) (hOf t) k) (Wk2 m c) (bk1 m c) e := by
  rw [pay3_apply, slab_rows, wk_blk, bk_blk]
theorem val_proj (t : Fin cfg0.N) (k : Fin 2048) (e : Fin 64) :
    k0_pay4 (F := Ideal) (iblk m c 0 t) (iblk m c 6 t) (iblk m c 7 t) (ix2 k e) = proj (X4 m c (bOf t) (hOf t) k) (Wv2 m c) (bv1 m c) e := by
  rw [pay4_apply, slab_rows, wv_blk, bv_blk]

/-- A later tile is a point of the same head as the point before it. -/
theorem same_head (n : ℕ) (hn : n + 1 < cfg0.N) (h0 : ¬(n + 1) % 4 = 0) :
    bOf ⟨n, Nat.lt_of_succ_lt hn⟩ = bOf ⟨n + 1, hn⟩ ∧ hOf ⟨n, Nat.lt_of_succ_lt hn⟩ = hOf ⟨n + 1, hn⟩ := by
  constructor
  · apply Fin.ext; show n / 64 = (n + 1) / 64; omega
  · apply Fin.ext; show n / 4 % 16 = (n + 1) / 4 % 16; omega

theorem inv_first (t : Fin cfg0.N) (h0 : t.val % 4 = 0) : Inv m c t.val t.isLt := by
  have e := outsAt_A m c t h0
  refine ⟨fun k e' => ?_, fun k e' => ?_, fun r d => ?_⟩
  · rw [e]; dsimp only; rw [sKA_eq]; exact key_proj m c t k e'
  · rw [e]; dsimp only; rw [sVA_eq]; exact val_proj m c t k e'
  · rw [e]; dsimp only; rw [out8A_eq]
    exact tile_result m c t _ _ (key_proj m c t) (val_proj m c t) r d

theorem inv_all : ∀ (n : ℕ) (hn : n < cfg0.N), Inv m c n hn := by
  intro n
  induction n with
  | zero => intro hn; exact inv_first m c ⟨0, hn⟩ (Nat.zero_mod _)
  | succ n ih =>
    intro hn
    by_cases h0 : (n + 1) % 4 = 0
    · exact inv_first m c ⟨n + 1, hn⟩ h0
    · have ihn := ih (Nat.lt_of_succ_lt hn)
      obtain ⟨eb, eh⟩ := same_head n hn h0
      have e := outsAt_B m c ⟨n + 1, hn⟩ h0
      have hK : ∀ (k : Fin 2048) (e' : Fin 64), (outsAt m c n (Nat.lt_of_succ_lt hn)).2.1 (ix2 k e') = proj (X4 m c (bOf ⟨n + 1, hn⟩) (hOf ⟨n + 1, hn⟩) k) (Wk2 m c) (bk1 m c) e' := by
        intro k e'; rw [← eb, ← eh]; exact ihn.keys k e'
      have hV : ∀ (k : Fin 2048) (e' : Fin 64), (outsAt m c n (Nat.lt_of_succ_lt hn)).2.2 (ix2 k e') = proj (X4 m c (bOf ⟨n + 1, hn⟩) (hOf ⟨n + 1, hn⟩) k) (Wv2 m c) (bv1 m c) e' := by
        intro k e'; rw [← eb, ← eh]; exact ihn.vals k e'
      refine ⟨fun k e' => ?_, fun k e' => ?_, fun r d => ?_⟩
      · rw [e]; exact hK k e'
      · rw [e]; exact hV k e'
      · rw [e]; dsimp only; rw [out8B_eq]
        exact tile_result m c ⟨n + 1, hn⟩ _ _ hK hV r d

/-- The specification's array of the argument arrays as the region finds them. -/
abbrev Gm : S2x16x2048x64.Idx → EReal :=
  Garr (Vm m c main_arg0) (Vm m c main_arg1) (Vm m c main_arg2) (Vm m c main_arg3) (Vm m c main_arg4) (Vm m c main_arg5) (Vm m c main_arg6)

/-- What point t writes back is block t of the specification's array. -/
theorem flushed8_eq (t : Fin cfg0.N) :
    (dats qOf m 0 c).flushed 8 t = ((cfg0.win 8).blk t).view.read (Elt Ideal) (Gm m c) := by
  show (cfg0.win 8).cut (grid0.coords t) ((dats qOf m 0 c).after 8 t) = _
  rw [after_8]
  funext j
  show (outsAt m c t.val t.isLt).1 j = Gm m c (((cfg0.win 8).blk t).view.emb j)
  rw [emb8]
  obtain ⟨r, d, rfl⟩ : ∃ (r : Fin 512) (d : Fin 64), j = ix4 0 0 r d := ⟨j 2, j 3, by
    funext a; match a with
    | ⟨0, _⟩ => exact Fin.ext (by have hj : (j 0).val < 1 := (j 0).isLt; show (j 0).val = 0; omega)
    | ⟨1, _⟩ => exact Fin.ext (by have hj : (j 1).val < 1 := (j 1).isLt; show (j 1).val = 0; omega)
    | ⟨2, _⟩ => rfl
    | ⟨3, _⟩ => rfl⟩
  exact (inv_all m c t.val t.isLt).outp r d

/-- An index of the result array is in point t's block iff each coordinate is in the block's range on its axis. -/
theorem mem_blk8 (t : Fin cfg0.N) (i : S2x16x2048x64.Idx) :
    i ∈ ((cfg0.win 8).blk t).view.set ↔ ∀ a : Fin 4, win0_8.index t a * S1x1x512x64.size a ≤ (i a).val ∧ (i a).val < win0_8.index t a * S1x1x512x64.size a + S1x1x512x64.size a := by
  show i ∈ ((View.whole main_v0).slice (win0_8.rect t)).set ↔ _
  rw [View.set_slice_whole, Rect.mem_set_unit]
  exact Iff.rfl

/-- Every index of the result is in the block of the point of its batch, head and tile. -/
theorem cover8 (i : S2x16x2048x64.Idx) : ∃ t : Fin cfg0.N, (cfg0.win 8).flush t = true ∧ i ∈ ((cfg0.win 8).blk t).view.set := by
  have h0 : (i 0).val < 2 := (i 0).isLt
  have h1 : (i 1).val < 16 := (i 1).isLt
  have h2 : (i 2).val < 2048 := (i 2).isLt
  have h3 : (i 3).val < 64 := (i 3).isLt
  have hN : cfg0.N = 128 := N_0
  let t : Fin cfg0.N := ⟨(i 0).val * 64 + (i 1).val * 4 + (i 2).val / 512, by omega⟩
  refine ⟨t, flush0_8 t, ?_⟩
  obtain ⟨-, -, ⟨e0, e1, e2, e3⟩, -⟩ := idx_facts t
  have tv : t.val = (i 0).val * 64 + (i 1).val * 4 + (i 2).val / 512 := rfl
  rw [mem_blk8]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 1 ≤ (i 1).val ∧ (i 1).val < win0_8.index t (1 : Fin 4) * 1 + 1; omega
  | ⟨2, _⟩ => show win0_8.index t (2 : Fin 4) * 512 ≤ (i 2).val ∧ (i 2).val < win0_8.index t (2 : Fin 4) * 512 + 512; omega
  | ⟨3, _⟩ => show win0_8.index t (3 : Fin 4) * 64 ≤ (i 3).val ∧ (i 3).val < win0_8.index t (3 : Fin 4) * 64 + 64; omega

/-- The result array after the run. -/
theorem final8 : (dats qOf m 0 c).arrAt 8 cfg0.N = Gm m c :=
  (dats qOf m 0 c).arrAt_eq_of_cover 8 (Gm m c) (fun t _ => flushed8_eq m c t) (cover8)

/-- The run, read: the result at the specification of the arguments, the arguments unchanged. -/
theorem run_value : θ_run defs (onTc (τ := τ) (main (F := Ideal))) ⟨m, fun _ => 0, ρ⟩ (fun r => ∀ c : Dev nD,
      r.2.mem ((c.tc : Thread nD τ).loc main_v0) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c 8).trans (final8 m c), (h c 0).trans (kept m c 0 rfl), (h c 2).trans (kept m c 2 rfl), (h c 3).trans (kept m c 3 rfl), (h c 4).trans (kept m c 4 rfl),
     (h c 5).trans (kept m c 5 rfl), (h c 6).trans (kept m c 6 rfl), (h c 7).trans (kept m c 7 rfl)⟩) (run_main m ρ)

end Cert.KernelIdeal.Hand

end
-- ==== Proof.RefAttnProj.lean ====
/-
  The whole-array program's three projections, read at an index.

  Each of q, k, v is a contraction of x with a weight matrix over the last axis of both (the matrix is stored
  [out, in]) followed by the addition of a bias broadcast along the last axis. At the index (b, h, s, e) that is
  Σ_d x[b, h, s, d] · W[e, d] + bias[e]: the function `Cert.Attn.proj` of the row x[b, h, s, ·].
-/
import proofs.«174484_j86217173500224_1_alg».proof.Proof.Gen.ReferenceIdeal.Read
import proofs.«174484_j86217173500224_1_alg».proof.Proof.AttnSpec

noncomputable section

namespace Cert.Attn.Ref

open Idealize.ShloMosaic Idealize.ShloMosaic.ValueIdx Cert.ReferenceIdeal Cert.ReferenceIdeal.Gen Cert.ReferenceIdeal.Read

/-- The input array as a function of its four coordinates. -/
abbrev X4 (x : FVec Ideal S2x16x2048x64 .f32) : Fin 2 → Fin 16 → Fin 2048 → Fin 64 → EReal :=
  fun b h s d => x (ix4 b h s d)
/-- A weight matrix as a function of its two coordinates (output lane first). -/
abbrev W2 (W : FVec Ideal S64x64 .f32) : Fin 64 → Fin 64 → EReal := fun e d => W (ix2 e d)
/-- A bias as a function of its coordinate. -/
abbrev B1 (c : FVec Ideal S64 .f32) : Fin 64 → EReal := fun e => c (ix1 e)

/-! ## Where each contraction reads its operands -/

theorem lidx_v0 (b : Fin 2) (h : Fin 16) (s : Fin 2048) (e k : Fin 64) :
    lidx_main_v0 (ix4 b h s e) k = ix4 b h s k := by
  funext a; match a with | ⟨0, _⟩ => rfl | ⟨1, _⟩ => rfl | ⟨2, _⟩ => rfl | ⟨3, _⟩ => rfl
theorem ridx_v0 (b : Fin 2) (h : Fin 16) (s : Fin 2048) (e k : Fin 64) :
    ridx_main_v0 (ix4 b h s e) k = ix2 e k := by
  funext a; match a with | ⟨0, _⟩ => rfl | ⟨1, _⟩ => rfl
theorem lidx_v4 (b : Fin 2) (h : Fin 16) (s : Fin 2048) (e k : Fin 64) :
    lidx_main_v4 (ix4 b h s e) k = ix4 b h s k := by
  funext a; match a with | ⟨0, _⟩ => rfl | ⟨1, _⟩ => rfl | ⟨2, _⟩ => rfl | ⟨3, _⟩ => rfl
theorem ridx_v4 (b : Fin 2) (h : Fin 16) (s : Fin 2048) (e k : Fin 64) :
    ridx_main_v4 (ix4 b h s e) k = ix2 e k := by
  funext a; match a with | ⟨0, _⟩ => rfl | ⟨1, _⟩ => rfl
theorem lidx_v8 (b : Fin 2) (h : Fin 16) (s : Fin 2048) (e k : Fin 64) :
    lidx_main_v8 (ix4 b h s e) k = ix4 b h s k := by
  funext a; match a with | ⟨0, _⟩ => rfl | ⟨1, _⟩ => rfl | ⟨2, _⟩ => rfl | ⟨3, _⟩ => rfl
theorem ridx_v8 (b : Fin 2) (h : Fin 16) (s : Fin 2048) (e k : Fin 64) :
    ridx_main_v8 (ix4 b h s e) k = ix2 e k := by
  funext a; match a with | ⟨0, _⟩ => rfl | ⟨1, _⟩ => rfl

/-- The two broadcasts of a bias read it at the last coordinate. -/
theorem bias_v2 (b : Fin 2) (h : Fin 16) (s : Fin 2048) (e : Fin 64) :
    idx_main_v1 (idx_main_v2 (ix4 b h s e)) = ix1 e := by
  funext a; match a with | ⟨0, _⟩ => rfl
theorem bias_v6 (b : Fin 2) (h : Fin 16) (s : Fin 2048) (e : Fin 64) :
    idx_main_v5 (idx_main_v6 (ix4 b h s e)) = ix1 e := by
  funext a; match a with | ⟨0, _⟩ => rfl
theorem bias_v10 (b : Fin 2) (h : Fin 16) (s : Fin 2048) (e : Fin 64) :
    idx_main_v9 (idx_main_v10 (ix4 b h s e)) = ix1 e := by
  funext a; match a with | ⟨0, _⟩ => rfl

/-! ## The projections -/

/-- The query projection at (b, h, s, e). -/
theorem q_apply (x : FVec Ideal S2x16x2048x64 .f32) (Wq : FVec Ideal S64x64 .f32) (bq : FVec Ideal S64 .f32)
    (b : Fin 2) (h : Fin 16) (s : Fin 2048) (e : Fin 64) :
    val_main_v3 (F := Ideal) x Wq bq (ix4 b h s e) = proj (X4 x b h s) (W2 Wq) (B1 bq) e := by
  rw [val_main_v3_apply, val_main_v0_apply, val_main_v2_apply, val_main_v1_apply, bias_v2]
  simp only [lidx_v0, ridx_v0, Ideal.addf_def]
  rfl

/-- The key projection at (b, h, s, e). -/
theorem k_apply (x : FVec Ideal S2x16x2048x64 .f32) (Wk : FVec Ideal S64x64 .f32) (bk : FVec Ideal S64 .f32)
    (b : Fin 2) (h : Fin 16) (s : Fin 2048) (e : Fin 64) :
    val_main_v7 (F := Ideal) x Wk bk (ix4 b h s e) = proj (X4 x b h s) (W2 Wk) (B1 bk) e := by
  rw [val_main_v7_apply, val_main_v4_apply, val_main_v6_apply, val_main_v5_apply, bias_v6]
  simp only [lidx_v4, ridx_v4, Ideal.addf_def]
  rfl

/-- The value projection at (b, h, s, e). -/
theorem v_apply (x : FVec Ideal S2x16x2048x64 .f32) (Wv : FVec Ideal S64x64 .f32) (bv : FVec Ideal S64 .f32)
    (b : Fin 2) (h : Fin 16) (s : Fin 2048) (e : Fin 64) :
    val_main_v11 (F := Ideal) x Wv bv (ix4 b h s e) = proj (X4 x b h s) (W2 Wv) (B1 bv) e := by
  rw [val_main_v11_apply, val_main_v8_apply, val_main_v10_apply, val_main_v9_apply, bias_v10]
  simp only [lidx_v8, ridx_v8, Ideal.addf_def]
  rfl

end Cert.Attn.Ref

end
-- ==== Proof.RefAttnScore.lean ====
/-
  The whole-array program's scaled scores and their row maximum, read at an index.

  The score of query row s against key row k of (b, h) is the contraction of the two projected rows over the lane
  axis, times the scale: `Cert.Attn.score`. The row maximum is a reduction with a maximum body over the key axis
  from −∞; maximum commutes and associates, so the reduction is the fold of max over the 2048 keys in any order,
  and the program takes the maximum with −∞ once more: `Cert.Attn.rowMax`.
-/
import proofs.«174484_j86217173500224_1_alg».proof.Proof.RefAttnProj

noncomputable section

namespace Cert.Attn.Ref

open Idealize.ShloMosaic Idealize.ShloMosaic.ValueIdx Cert.ReferenceIdeal Cert.ReferenceIdeal.Gen Cert.ReferenceIdeal.Read

/-- The row of scaled scores of query row s of (b, h): what the softmax is taken of. -/
abbrev Srow (x : FVec Ideal S2x16x2048x64 .f32) (Wq : FVec Ideal S64x64 .f32) (bq : FVec Ideal S64 .f32)
    (Wk : FVec Ideal S64x64 .f32) (bk : FVec Ideal S64 .f32) (b : Fin 2) (h : Fin 16) (s : Fin 2048) : Fin 2048 → EReal :=
  score (proj (X4 x b h s) (W2 Wq) (B1 bq)) (fun k => proj (X4 x b h k) (W2 Wk) (B1 bk))

/-! ## Where the score contraction reads its operands -/

theorem lidx_v12 (b : Fin 2) (h : Fin 16) (s k : Fin 2048) (e : Fin 64) :
    lidx_main_v12 (ix4 b h s k) e = ix4 b h s e := by
  funext a; match a with | ⟨0, _⟩ => rfl | ⟨1, _⟩ => rfl | ⟨2, _⟩ => rfl | ⟨3, _⟩ => rfl
theorem ridx_v12 (b : Fin 2) (h : Fin 16) (s k : Fin 2048) (e : Fin 64) :
    ridx_main_v12 (ix4 b h s k) e = ix4 b h k e := by
  funext a; match a with | ⟨0, _⟩ => rfl | ⟨1, _⟩ => rfl | ⟨2, _⟩ => rfl | ⟨3, _⟩ => rfl

/-- The scaled score at (b, h, s, k). -/
theorem score_apply (x : FVec Ideal S2x16x2048x64 .f32) (Wq : FVec Ideal S64x64 .f32) (bq : FVec Ideal S64 .f32)
    (Wk : FVec Ideal S64x64 .f32) (bk : FVec Ideal S64 .f32) (b : Fin 2) (h : Fin 16) (s k : Fin 2048) :
    val_main_v14 (F := Ideal) x Wq bq Wk bk (ix4 b h s k) = Srow x Wq bq Wk bk b h s k := by
  rw [val_main_v14_apply, val_main_v12_apply, val_main_v13_apply, val_main_cst_apply]
  simp only [lidx_v12, ridx_v12, q_apply, k_apply, Ideal.mulf_def, Ideal.ofBits_def]
  rfl

/-! ## The row maximum -/

/-- The reduced index (b, h, s) with key k put back on the key axis is (b, h, s, k). -/
theorem lift_v15 (hR : S2x16x2048x2048.Reduces [3] S2x16x2048) (b : Fin 2) (h : Fin 16) (s : Fin 2048)
    (k : Fin (S2x16x2048x2048.size 3)) : hR.lift (ix3 b h s) k = ix4 b h s (⟨k.val, k.isLt⟩ : Fin 2048) := by
  funext c; apply Fin.ext
  match c with | ⟨0, _⟩ => rfl | ⟨1, _⟩ => rfl | ⟨2, _⟩ => rfl | ⟨3, _⟩ => rfl

/-- The maximum-reduction of the scores over the key axis, at (b, h, s): the fold of max from −∞ over the keys. -/
theorem reduceMax_apply (x : FVec Ideal S2x16x2048x64 .f32) (Wq : FVec Ideal S64x64 .f32) (bq : FVec Ideal S64 .f32)
    (Wk : FVec Ideal S64x64 .f32) (bk : FVec Ideal S64 .f32) (b : Fin 2) (h : Fin 16) (s : Fin 2048) :
    val_main_v15 (F := Ideal) x Wq bq Wk bk (ix3 b h s)
      = (Finset.univ : Finset (Fin 2048)).fold max negInf (Srow x Wq bq Wk bk b h s) := by
  have hR : S2x16x2048x2048.Reduces [3] S2x16x2048 := by decide
  unfold val_main_v15
  refine (Host.reduce_eq_fold_single FloatOps.maximumf _ _ reducesTo_S2x16x2048x2048_S2x16x2048_d3 hR h_S_ (ix3 b h s)).trans ?_
  have hf : (val_main_v14 (F := Ideal) x Wq bq Wk bk ∘ hR.lift (ix3 b h s)) = Srow x Wq bq Wk bk b h s :=
    funext fun k => (congrArg (val_main_v14 (F := Ideal) x Wq bq Wk bk) (lift_v15 hR b h s k)).trans
      (score_apply x Wq bq Wk bk b h s ⟨k.val, k.isLt⟩)
  exact congrArg (fun f => Finset.fold max negInf f (Finset.univ : Finset (Fin 2048))) hf

/-- The row maximum at (b, h, s), the maximum with −∞ taken once more. -/
theorem rowMax_apply (x : FVec Ideal S2x16x2048x64 .f32) (Wq : FVec Ideal S64x64 .f32) (bq : FVec Ideal S64 .f32)
    (Wk : FVec Ideal S64x64 .f32) (bk : FVec Ideal S64 .f32) (b : Fin 2) (h : Fin 16) (s : Fin 2048) :
    val_main_v17 (F := Ideal) x Wq bq Wk bk (ix3 b h s) = rowMax (Srow x Wq bq Wk bk b h s) := by
  rw [val_main_v17_apply, val_main_v16_apply, val_main_cst_1_apply, reduceMax_apply]
  rfl

end Cert.Attn.Ref

end
-- ==== Proof.RefAttnSoftmax.lean ====
/-
  The whole-array program's softmax weights, read at an index.

  The exponential of a score less its row maximum (the maximum broadcast back along the key axis), the sum of a row's
  exponentials from 0 (a reduction with an add body over the key axis: the initial value plus the sum over the 2048
  keys), and their quotient (the sum broadcast back along the key axis): `Cert.Attn.expo`, `denom`, `prob` of the row
  of scores.
-/
import proofs.«174484_j86217173500224_1_alg».proof.Proof.RefAttnScore

noncomputable section

namespace Cert.Attn.Ref

open Idealize.ShloMosaic Idealize.ShloMosaic.ValueIdx Cert.ReferenceIdeal Cert.ReferenceIdeal.Gen Cert.ReferenceIdeal.Read

/-! ## Where the broadcasts and the sum read their operands -/

/-- The row maximum broadcast along the key axis is read at (b, h, s). -/
theorem idx_v19 (b : Fin 2) (h : Fin 16) (s k : Fin 2048) :
    idx_main_v18 (idx_main_v19 (ix4 b h s k)) = ix3 b h s := by
  funext a; match a with | ⟨0, _⟩ => rfl | ⟨1, _⟩ => rfl | ⟨2, _⟩ => rfl
/-- The row sum broadcast along the key axis is read at (b, h, s). -/
theorem idx_v24 (b : Fin 2) (h : Fin 16) (s k : Fin 2048) :
    idx_main_v23 (idx_main_v24 (ix4 b h s k)) = ix3 b h s := by
  funext a; match a with | ⟨0, _⟩ => rfl | ⟨1, _⟩ => rfl | ⟨2, _⟩ => rfl
/-- The sum over the key axis at (b, h, s) reads key k at (b, h, s, k). -/
theorem idx_v22 (b : Fin 2) (h : Fin 16) (s k : Fin 2048) :
    idx_main_v22 (ix3 b h s) k = ix4 b h s k := by
  funext a; match a with | ⟨0, _⟩ => rfl | ⟨1, _⟩ => rfl | ⟨2, _⟩ => rfl | ⟨3, _⟩ => rfl

/-! ## The exponentials, their sum, the weights -/

/-- The exponential of the score less the row maximum, at (b, h, s, k). -/
theorem expo_apply (x : FVec Ideal S2x16x2048x64 .f32) (Wq : FVec Ideal S64x64 .f32) (bq : FVec Ideal S64 .f32)
    (Wk : FVec Ideal S64x64 .f32) (bk : FVec Ideal S64 .f32) (b : Fin 2) (h : Fin 16) (s k : Fin 2048) :
    val_main_v21 (F := Ideal) x Wq bq Wk bk (ix4 b h s k) = expo (Srow x Wq bq Wk bk b h s) k := by
  rw [val_main_v21_apply, val_main_v20_apply, val_main_v19_apply, val_main_v18_apply, idx_v19, score_apply, rowMax_apply]
  rfl

/-- The sum of the row's exponentials from 0, at (b, h, s). -/
theorem denom_apply (x : FVec Ideal S2x16x2048x64 .f32) (Wq : FVec Ideal S64x64 .f32) (bq : FVec Ideal S64 .f32)
    (Wk : FVec Ideal S64x64 .f32) (bk : FVec Ideal S64 .f32) (b : Fin 2) (h : Fin 16) (s : Fin 2048) :
    val_main_v22 (F := Ideal) x Wq bq Wk bk (ix3 b h s) = denom (Srow x Wq bq Wk bk b h s) := by
  rw [val_main_v22_apply, val_main_cst_2_apply]
  simp only [idx_v22, expo_apply, Ideal.ofBits_def]
  rfl

/-- The softmax weight at (b, h, s, k). -/
theorem prob_apply (x : FVec Ideal S2x16x2048x64 .f32) (Wq : FVec Ideal S64x64 .f32) (bq : FVec Ideal S64 .f32)
    (Wk : FVec Ideal S64x64 .f32) (bk : FVec Ideal S64 .f32) (b : Fin 2) (h : Fin 16) (s k : Fin 2048) :
    val_main_v25 (F := Ideal) x Wq bq Wk bk (ix4 b h s k) = prob (Srow x Wq bq Wk bk b h s) k := by
  rw [val_main_v25_apply, val_main_v24_apply, val_main_v23_apply, idx_v24, expo_apply, denom_apply]
  rfl

end Cert.Attn.Ref

end
-- ==== Proof.RefAttn.lean ====
/-
  The whole-array program computes the specification.

  Its result is the contraction of the softmax weights with the value projection over the key axis (batch axes b, h):
  at (b, h, s, d) the sum over the 2048 keys of weight[b, h, s, k] · v[b, h, k, d], which is `Cert.Attn.attend` of the
  projected query row, keys and values, that is `Cert.Attn.G` at (b, h, s, d). Every stage was read at an index
  without any law of arithmetic beyond reindexing: the two sides are one expression tree.
-/
import proofs.«174484_j86217173500224_1_alg».proof.Proof.RefAttnSoftmax

noncomputable section

namespace Cert.Attn.Ref

open Idealize.ShloMosaic Idealize.ShloMosaic.ValueIdx Cert.ReferenceIdeal Cert.ReferenceIdeal.Gen Cert.ReferenceIdeal.Read

open Idealize.ShloMosaic.TcCoe Idealize.SL.Sem Idealize.ShloMosaic.StableHlo

/-! ## Where the output contraction reads its operands -/

theorem lidx_v26 (b : Fin 2) (h : Fin 16) (s : Fin 2048) (d : Fin 64) (k : Fin 2048) :
    lidx_main_v26 (ix4 b h s d) k = ix4 b h s k := by
  funext a; match a with | ⟨0, _⟩ => rfl | ⟨1, _⟩ => rfl | ⟨2, _⟩ => rfl | ⟨3, _⟩ => rfl
theorem ridx_v26 (b : Fin 2) (h : Fin 16) (s : Fin 2048) (d : Fin 64) (k : Fin 2048) :
    ridx_main_v26 (ix4 b h s d) k = ix4 b h k d := by
  funext a; match a with | ⟨0, _⟩ => rfl | ⟨1, _⟩ => rfl | ⟨2, _⟩ => rfl | ⟨3, _⟩ => rfl

/-- The result at (b, h, s, d). -/
theorem out_apply (x : FVec Ideal S2x16x2048x64 .f32) (Wq : FVec Ideal S64x64 .f32) (bq : FVec Ideal S64 .f32)
    (Wk : FVec Ideal S64x64 .f32) (bk : FVec Ideal S64 .f32) (Wv : FVec Ideal S64x64 .f32) (bv : FVec Ideal S64 .f32)
    (b : Fin 2) (h : Fin 16) (s : Fin 2048) (d : Fin 64) :
    val_main_v26 (F := Ideal) x Wq bq Wk bk Wv bv (ix4 b h s d)
      = G (X4 x) (W2 Wq) (B1 bq) (W2 Wk) (B1 bk) (W2 Wv) (B1 bv) b h s d := by
  rw [val_main_v26_apply]
  simp only [lidx_v26, ridx_v26, prob_apply, v_apply]
  rfl

/-- The whole-array program's result, as a function of its seven argument arrays, is the specification's array. -/
theorem result_eq (x : FVec Ideal S2x16x2048x64 .f32) (Wq : FVec Ideal S64x64 .f32) (bq : FVec Ideal S64 .f32)
    (Wk : FVec Ideal S64x64 .f32) (bk : FVec Ideal S64 .f32) (Wv : FVec Ideal S64x64 .f32) (bv : FVec Ideal S64 .f32) :
    val_main_v26 (F := Ideal) x Wq bq Wk bk Wv bv = Garr x Wq bq Wk bk Wv bv := by
  funext i
  obtain ⟨b, h, s, d, rfl⟩ : ∃ (b : Fin 2) (h : Fin 16) (s : Fin 2048) (d : Fin 64), i = ix4 b h s d :=
    ⟨i 0, i 1, i 2, i 3, eq_ix4 i⟩
  exact out_apply x Wq bq Wk bk Wv bv b h s d

/-- The same about the term the program's run ends its result buffer at, over the launch memory's argument buffers. -/
theorem res_eq (m : (ℓ : Loc nD τ sig) → Buf (Elt Ideal) ℓ) (c : Dev nD) :
    Cert.ReferenceIdeal.Value.res_main_v26 (F := Ideal) m c
      = Garr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (val_main_v26_eq (F := Ideal) m c).trans (result_eq _ _ _ _ _ _ _)

end Cert.Attn.Ref

end
-- ==== Proof.lean ====
/-
  Fused attention with learned projections against its whole-array reference.

  The kernel runs over a grid of 2·16·4 points: batch, head, query tile of 512 rows. At a head's first tile it projects
  the head's whole slab of x into keys and values (x·Wkᵀ + bk, x·Wvᵀ + bv) and keeps them in two buffers it carries
  over the head's four tiles; at every tile it projects the tile's rows into queries, scores them against the keys,
  scales by 1/8, takes the softmax over the 2048 keys (row maximum from −∞, exponentials, their sum from 0, the quotient)
  and multiplies by the values. The reference computes the same expression on whole arrays. At the ideal instance a
  change of float format is the identity and a matrix product into a zero accumulator is a plain sum, so both results
  are the one function Cert.Attn.Garr of the seven argument arrays, entry by entry; no law beyond re-indexing sums and
  maxima is used, and the inputs' finiteness is not needed.

  The input x reaches the kernel through two windows (the slab and the tile), so its buffer is shared between them at
  two half shares. Each program's frame (it terminates, faults nowhere, leaves its arguments unchanged) is proved from
  the body's run at a symbolic grid point in its two control cases, with the carried buffers' contents as the invariant
  between points. The idealized kernel is the kernel's own text read at the ideal instance, so the idealization claim is trivial.
-/
import proofs.«174484_j86217173500224_1_alg».proof.Defs
import proofs.«174484_j86217173500224_1_alg».proof.Proof.Gen.Kernel
import proofs.«174484_j86217173500224_1_alg».proof.Proof.Gen.KernelIdeal
import proofs.«174484_j86217173500224_1_alg».proof.Proof.Gen.ReferenceIdeal
import proofs.«174484_j86217173500224_1_alg».proof.Proof.Gen.ReferenceIdeal.Run
import proofs.«174484_j86217173500224_1_alg».proof.Proof.Gen.ReferenceIdeal.Read
import proofs.«174484_j86217173500224_1_alg».proof.Proof.Gen.Pre_finite_inputs
import proofs.«174484_j86217173500224_1_alg».proof.Proof.RunK
import proofs.«174484_j86217173500224_1_alg».proof.Proof.ValueKI
import proofs.«174484_j86217173500224_1_alg».proof.Proof.RefAttn
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text: there is no rewritten operation to account for. -/
theorem preserves : Cert.preserves_Kernel_KernelIdeal := trivial

/-- From memories agreeing on the arguments both programs end with the specification's array of those arguments. -/
theorem algebraic : Cert.algebraic_KernelIdeal_ReferenceIdeal := by
  intro m ρ m' ρ' _ hagree
  refine ⟨fun c => Cert.KernelIdeal.Hand.Gm m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.Attn.Ref.res_eq m' c]
  obtain ⟨e0, e1, e2, e3, e4, e5, e6⟩ := hagree c
  rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
